-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x512 : Shape := ⟨3, ![4, 2048, 512]⟩
abbrev S4x2048x1 : Shape := ⟨3, ![4, 2048, 1]⟩
abbrev S1x2048x2048 : Shape := ⟨3, ![1, 2048, 2048]⟩
abbrev S_ : Shape := ⟨0, ![]⟩
abbrev S4x2048 : Shape := ⟨2, ![4, 2048]⟩

class Facts : Prop where
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel
  bcast_S_S4x2048x1 : S_.BroadcastsInDim S4x2048x1 (![] : Fin 0 → Fin S4x2048x1.rank)
  reducesTo_S4x2048x1_S_d0_1_2 : S4x2048x1.ReducesTo [0, 1, 2] S_
  bcast_S_S1x2048x2048 : S_.BroadcastsInDim S1x2048x2048 (![] : Fin 0 → Fin S1x2048x2048.rank)
  reducesTo_S1x2048x2048_S_d0_1_2 : S1x2048x2048.ReducesTo [0, 1, 2] S_
  reducesTo_S4x2048x512_S4x2048_d2 : S4x2048x512.ReducesTo [2] S4x2048
  bcast_S_S4x2048 : S_.BroadcastsInDim S4x2048 (![] : Fin 0 → Fin S4x2048.rank)
  reducesTo_S4x2048_S_d0_1 : S4x2048.ReducesTo [0, 1] S_

variable [Facts]

def fn_part1 {F : FTy → Type} [FloatOps F] (main_v13 : IVec S_ 1) (main_v15 : FVec F S4x2048 .f32) (main_cst_5 : FVec F S_ .f32) : IVec S_ 1 :=
  let main_v16 : FVec F S4x2048 .f32 := broadcastInDim S4x2048 ![] bcast_S_S4x2048 main_cst_5
  let main_v17 : IVec S4x2048 1 := cmpf .ogt main_v15 main_v16
  let main_c_6 : IVec S_ 1 := constantI S_ 1 1#1
  let main_v18 : IVec S_ 1 := (fun x v => Host.reduce IntOp.andi x v reducesTo_S4x2048_S_d0_1 h_S_) main_v17 main_c_6
  let main_v19 : IVec S_ 1 := andi main_v13 main_v18
  main_v19

def fn {F : FTy → Type} [FloatOps F] (main_arg0 : FVec F S4x2048x512 .f32) (main_arg1 : FVec F S4x2048x1 .f32) (main_arg2 : FVec F S1x2048x2048 .f32) : IVec S_ 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_c : IVec S_ 1 := constantI S_ 1 1#1
  let main_v3 : IVec S_ 1 := (fun x v => Host.reduce IntOp.andi x v reducesTo_S4x2048x512_S_d0_1_2 h_S_) main_v2 main_c
  let main_v4 : FVec F S4x2048x1 .f32 := Host.absf main_arg1
  let main_cst_0 : FVec F S_ .f32 := constant S_ .f32 0x7F800000#32
  let main_v5 : FVec F S4x2048x1 .f32 := broadcastInDim S4x2048x1 ![] bcast_S_S4x2048x1 main_cst_0
  let main_v6 : IVec S4x2048x1 1 := cmpf .olt main_v4 main_v5
  let main_c_1 : IVec S_ 1 := constantI S_ 1 1#1
  let main_v7 : IVec S_ 1 := (fun x v => Host.reduce IntOp.andi x v reducesTo_S4x2048x1_S_d0_1_2 h_S_) main_v6 main_c_1
  let main_v8 : IVec S_ 1 := andi main_v3 main_v7
  let main_v9 : FVec F S1x2048x2048 .f32 := Host.absf main_arg2
  let main_cst_2 : FVec F S_ .f32 := constant S_ .f32 0x7F800000#32
  let main_v10 : FVec F S1x2048x2048 .f32 := broadcastInDim S1x2048x2048 ![] bcast_S_S1x2048x2048 main_cst_2
  let main_v11 : IVec S1x2048x2048 1 := cmpf .olt main_v9 main_v10
  let main_c_3 : IVec S_ 1 := constantI S_ 1 1#1
  let main_v12 : IVec S_ 1 := (fun x v => Host.reduce IntOp.andi x v reducesTo_S1x2048x2048_S_d0_1_2 h_S_) main_v11 main_c_3
  let main_v13 : IVec S_ 1 := andi main_v8 main_v12
  let main_v14 : FVec F S4x2048x512 .f32 := mulf main_arg0 main_arg0
  let main_cst_4 : FVec F S_ .f32 := constant S_ .f32 0x00000000#32
  let main_v15 : FVec F S4x2048 .f32 := (fun x v => Host.reduceAdd x v reducesTo_S4x2048x512_S4x2048_d2 h_S_) main_v14 main_cst_4
  let main_cst_5 : FVec F S_ .f32 := constant S_ .f32 0x00000000#32
  fn_part1 (F := F) main_v13 main_v15 main_cst_5
-- ==== Kernel.lean ====
abbrev S4x2048x512 : Shape := ⟨3, ![4, 2048, 512]⟩
abbrev S4x2048x1 : Shape := ⟨3, ![4, 2048, 1]⟩
abbrev S1x2048x2048 : Shape := ⟨3, ![1, 2048, 2048]⟩
abbrev S_ : Shape := ⟨0, ![]⟩
abbrev S2048x2048 : Shape := ⟨2, ![2048, 2048]⟩
abbrev S4x2048 : Shape := ⟨2, ![4, 2048]⟩
abbrev S4x512x2048 : Shape := ⟨3, ![4, 512, 2048]⟩
abbrev S4x1x2048 : Shape := ⟨3, ![4, 1, 2048]⟩
abbrev S4x2048x2048 : Shape := ⟨3, ![4, 2048, 2048]⟩
abbrev S1x128x512 : Shape := ⟨3, ![1, 128, 512]⟩
abbrev S1x512x2048 : Shape := ⟨3, ![1, 512, 2048]⟩
abbrev S1x1x2048 : Shape := ⟨3, ![1, 1, 2048]⟩
abbrev S1x128x2048 : Shape := ⟨3, ![1, 128, 2048]⟩
abbrev S128x512 : Shape := ⟨2, ![128, 512]⟩
abbrev S512x2048 : Shape := ⟨2, ![512, 2048]⟩
abbrev S128x2048 : Shape := ⟨2, ![128, 2048]⟩
abbrev S1x2048 : Shape := ⟨2, ![1, 2048]⟩
abbrev S128 : Shape := ⟨1, ![128]⟩
abbrev S128x1 : Shape := ⟨2, ![128, 1]⟩
abbrev S4x2048x2048x1 : Shape := ⟨4, ![4, 2048, 2048, 1]⟩

abbrev nBuf : Space → Nat
  | .hbm => 21
  | .vmem => 9
  | .smem => 0
  | _ => 0

abbrev bufTy : (tb : Table) → Fin (tcTables nBuf tb) → BufTy
  | .hbm, ⟨0, _⟩ => ⟨S4x2048x512, .f32⟩
  | .hbm, ⟨1, _⟩ => ⟨S4x2048x1, .f32⟩
  | .hbm, ⟨2, _⟩ => ⟨S1x2048x2048, .f32⟩
  | .hbm, ⟨3, _⟩ => ⟨S1x2048x2048, .f32⟩
  | .hbm, ⟨4, _⟩ => ⟨S1x2048x2048, .f32⟩
  | .hbm, ⟨5, _⟩ => ⟨S_, .f32⟩
  | .hbm, ⟨6, _⟩ => ⟨S1x2048x2048, .f32⟩
  | .hbm, ⟨7, _⟩ => ⟨S1x2048x2048, .f32⟩
  | .hbm, ⟨8, _⟩ => ⟨S2048x2048, .f32⟩
  | .hbm, ⟨9, _⟩ => ⟨S4x2048x512, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S4x2048x1, .f32⟩
  | .hbm, ⟨14, _⟩ => ⟨S4x2048x512, .f32⟩
  | .hbm, ⟨15, _⟩ => ⟨S4x2048x512, .f32⟩
  | .hbm, ⟨16, _⟩ => ⟨S4x2048x512, .bf16⟩
  | .hbm, ⟨17, _⟩ => ⟨S4x512x2048, .bf16⟩
  | .hbm, ⟨18, _⟩ => ⟨S4x1x2048, .f32⟩
  | .hbm, ⟨19, _⟩ => ⟨S4x2048x2048, .f32⟩
  | .hbm, ⟨20, _⟩ => ⟨S4x2048x2048x1, .f32⟩
  | .local _ .vmem, ⟨0, _⟩ => ⟨S1x128x512, .bf16⟩
  | .local _ .vmem, ⟨1, _⟩ => ⟨S1x128x512, .bf16⟩
  | .local _ .vmem, ⟨2, _⟩ => ⟨S1x512x2048, .bf16⟩
  | .local _ .vmem, ⟨3, _⟩ => ⟨S1x512x2048, .bf16⟩
  | .local _ .vmem, ⟨4, _⟩ => ⟨S2048x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x128x2048, .f32⟩
  | .local _ .vmem, ⟨8, _⟩ => ⟨S1x128x2048, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  v0
def k0_off1 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v6 : Index := Scalar.indexCast v1
  let c0_5 : Index := 0#32
  ![v6.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S1x2048x2048_S1x2048x2048_0_2_1 : S1x2048x2048.Transposes [0, 2, 1] S1x2048x2048
  bcast_S_S1x2048x2048 : S_.BroadcastsInDim S1x2048x2048 (![] : Fin 0 → Fin S1x2048x2048.rank)
  shapeCasts_S1x2048x2048_S2048x2048 : S1x2048x2048.ShapeCasts S2048x2048
  reducesTo_S4x2048x512_S4x2048_d2 : S4x2048x512.ReducesTo [2] S4x2048
  h_S_ : 0 < S_.numel
  bcast_S4x2048_S4x2048x1_0_1 : S4x2048.BroadcastsInDim S4x2048x1 (![0, 1] : Fin 2 → Fin S4x2048x1.rank)
  bcast_S4x2048x1_S4x2048x512_0_1_2 : S4x2048x1.BroadcastsInDim S4x2048x512 (![0, 1, 2] : Fin 3 → Fin S4x2048x512.rank)
  bitsLt_bf16_f32 : FTy.bits .bf16 < FTy.bits .f32
  transposes_S4x2048x512_S4x512x2048_0_2_1 : S4x2048x512.Transposes [0, 2, 1] S4x512x2048
  transposes_S4x2048x1_S4x1x2048_0_2_1 : S4x2048x1.Transposes [0, 2, 1] S4x1x2048
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  h_S128x2048 : 0 < S128x2048.numel
  shapeCasts_S128x2048_S128x2048 : S128x2048.ShapeCasts S128x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  reduces_S128x2048_S128 : S128x2048.Reduces [1] S128
  shapeCasts_S128_S128x1 : S128.ShapeCasts S128x1
  broadcasts_S1x2048_S128x2048 : S1x2048.Broadcasts S128x2048
  broadcasts_S128x1_S128x2048 : S128x1.Broadcasts S128x2048
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  shapeCasts_S128x2048_S1x128x2048 : S128x2048.ShapeCasts S1x128x2048
  bcast_S4x2048x2048_S4x2048x2048x1_0_1_2 : S4x2048x2048.BroadcastsInDim S4x2048x2048x1 (![0, 1, 2] : Fin 3 → Fin S4x2048x2048x1.rank)
  dot_S128x512_S512x2048_S128x2048_1_0_0_1_n_n_wf : DotDims.WF S128x512 S512x2048 S128x2048 [1] [0] [0] [1] [] []
  hrank0 : 0 < grid0.rank
  k0_mult1_dvd : ∀ i : grid0.Coords, 128 ∣ (k0_mult1 i).toNat
  k0_off1_inb : ∀ i : grid0.Coords, ∀ a, (k0_off1 i) a + S128x2048.size a ≤ S2048x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x512.size a ≤ S4x2048x512.size a
  hwx0_0 : ∀ i : grid0.Coords, EltTy.bits .bf16 = 32 ∨ (Rect.block (s := S4x2048x512) S1x128x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2048.size a ≤ S4x512x2048.size a
  hwx0_1 : ∀ i : grid0.Coords, EltTy.bits .bf16 = 32 ∨ (Rect.block (s := S4x512x2048) S1x512x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .f32 = 32 ∨ (Rect.block (s := S2048x2048) S2048x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S4x1x2048.size a
  hwx0_3 : ∀ i : grid0.Coords, EltTy.bits .f32 = 32 ∨ (Rect.block (s := S4x1x2048) S1x1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x2048.size a ≤ S4x2048x2048.size a
  hwx0_4 : ∀ i : grid0.Coords, EltTy.bits .f32 = 32 ∨ (Rect.block (s := S4x2048x2048) S1x128x2048.size (cc0_transform_4 i) (hinb0_4 i)).WholeWords (EltTy.packing .f32)

variable [Facts₀]

def dot_S128x512_S512x2048_S128x2048_1_0_0_1_n_n : DotDims S128x512 S512x2048 S128x2048 where
  lhsContracting := [1]
  rhsContracting := [0]
  lhsNonContracting := [0]
  rhsNonContracting := [1]
  lhsBatch := []
  rhsBatch := []
  wf := dot_S128x512_S512x2048_S128x2048_1_0_0_1_n_n_wf

abbrev win0_0 : Pipeline.Window sig grid0 :=
  Pipeline.Window.ofSpec (Memref.whole main_v11) S1x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1x512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x512 : Shape := ⟨3, ![4, 2048, 512]⟩
abbrev S4x2048x1 : Shape := ⟨3, ![4, 2048, 1]⟩
abbrev S1x2048x2048 : Shape := ⟨3, ![1, 2048, 2048]⟩
abbrev S_ : Shape := ⟨0, ![]⟩
abbrev S2048x2048 : Shape := ⟨2, ![2048, 2048]⟩
abbrev S4x2048 : Shape := ⟨2, ![4, 2048]⟩
abbrev S4x1x2048 : Shape := ⟨3, ![4, 1, 2048]⟩
abbrev S4x2048x2048 : Shape := ⟨3, ![4, 2048, 2048]⟩
abbrev S4x512x2048 : Shape := ⟨3, ![4, 512, 2048]⟩
abbrev S4x2048x2048x1 : Shape := ⟨4, ![4, 2048, 2048, 1]⟩
abbrev S2048x1 : Shape := ⟨2, ![2048, 1]⟩
abbrev S1x2048x1 : Shape := ⟨3, ![1, 2048, 1]⟩
abbrev S1x1x2048x1 : Shape := ⟨4, ![1, 1, 2048, 1]⟩
abbrev S4x2048x1x1 : Shape := ⟨4, ![4, 2048, 1, 1]⟩
abbrev S4x1x2048x1 : Shape := ⟨4, ![4, 1, 2048, 1]⟩

abbrev nBuf : Space → Nat
  | .hbm => 190
  | .vmem => 0
  | .smem => 0
  | _ => 0

abbrev hbmTy0_0 (i : Nat) : BufTy := match i % 128 with
  | 0 => ⟨S4x2048x512, .f32⟩
  | 1 => ⟨S4x2048x1, .f32⟩
  | 2 => ⟨S1x2048x2048, .f32⟩
  | 3 => ⟨S1x2048x2048, .f32⟩
  | 4 => ⟨S1x2048x2048, .f32⟩
  | 5 => ⟨S_, .f32⟩
  | 6 => ⟨S1x2048x2048, .f32⟩
  | 7 => ⟨S1x2048x2048, .f32⟩
  | 8 => ⟨S2048x2048, .f32⟩
  | 9 => ⟨S4x2048x512, .f32⟩
  | 10 => ⟨S_, .f32⟩
  | 11 => ⟨S4x2048, .f32⟩
  | 12 => ⟨S4x2048x1, .f32⟩
  | 13 => ⟨S4x2048x1, .f32⟩
  | 14 => ⟨S4x1x2048, .f32⟩
  | 15 => ⟨S4x2048x2048, .f32⟩
  | 16 => ⟨S4x2048x2048, .f32⟩
  | 17 => ⟨S4x2048x2048, .f32⟩
  | 18 => ⟨S4x512x2048, .f32⟩
  | 19 => ⟨S4x2048x2048, .f32⟩
  | 20 => ⟨S4x2048x2048, .f32⟩
  | 21 => ⟨S1x2048x2048, .f32⟩
  | 22 => ⟨S4x2048x2048, .f32⟩
  | 23 => ⟨S4x2048x2048, .f32⟩
  | 24 => ⟨S4x2048x2048x1, .f32⟩
  | 25 => ⟨S_, .f32⟩
  | 26 => ⟨S2048x1, .f32⟩
  | 27 => ⟨S1x2048x1, .f32⟩
  | 28 => ⟨S1x1x2048x1, .f32⟩
  | 29 => ⟨S4x2048x2048x1, .f32⟩
  | 30 => ⟨S4x2048x2048x1, .f32⟩
  | 31 => ⟨S_, .f32⟩
  | 32 => ⟨S4x2048x1, .f32⟩
  | 33 => ⟨S4x2048x1x1, .f32⟩
  | 34 => ⟨S4x1x2048x1, .f32⟩
  | 35 => ⟨S4x2048x2048x1, .f32⟩
  | 36 => ⟨S4x2048x2048x1, .f32⟩
  | 37 => ⟨S4x2048x2048x1, .f32⟩
  | 38 => ⟨S4x2048x2048x1, .f32⟩
  | 39 => ⟨S4x2048x2048x1, .f32⟩
  | 40 => ⟨S_, .f32⟩
  | 41 => ⟨S4x2048x2048x1, .f32⟩
  | 42 => ⟨S4x2048x2048x1, .f32⟩
  | 43 => ⟨S_, .f32⟩
  | 44 => ⟨S4x2048x2048x1, .f32⟩
  | 45 => ⟨S4x2048x2048x1, .f32⟩
  | 46 => ⟨S4x2048x2048x1, .f32⟩
  | 47 => ⟨S_, .f32⟩
  | 48 => ⟨S4x2048x1, .f32⟩
  | 49 => ⟨S4x2048x1x1, .f32⟩
  | 50 => ⟨S4x1x2048x1, .f32⟩
  | 51 => ⟨S4x2048x2048x1, .f32⟩
  | 52 => ⟨S4x2048x2048x1, .f32⟩
  | 53 => ⟨S4x2048x2048x1, .f32⟩
  | 54 => ⟨S4x2048x2048x1, .f32⟩
  | 55 => ⟨S4x2048x2048x1, .f32⟩
  | 56 => ⟨S_, .f32⟩
  | 57 => ⟨S4x2048x2048x1, .f32⟩
  | 58 => ⟨S4x2048x2048x1, .f32⟩
  | 59 => ⟨S_, .f32⟩
  | 60 => ⟨S4x2048x2048x1, .f32⟩
  | 61 => ⟨S4x2048x2048x1, .f32⟩
  | 62 => ⟨S4x2048x2048x1, .f32⟩
  | 63 => ⟨S_, .f32⟩
  | 64 => ⟨S4x2048x1, .f32⟩
  | 65 => ⟨S4x2048x1x1, .f32⟩
  | 66 => ⟨S4x1x2048x1, .f32⟩
  | 67 => ⟨S4x2048x2048x1, .f32⟩
  | 68 => ⟨S4x2048x2048x1, .f32⟩
  | 69 => ⟨S4x2048x2048x1, .f32⟩
  | 70 => ⟨S4x2048x2048x1, .f32⟩
  | 71 => ⟨S4x2048x2048x1, .f32⟩
  | 72 => ⟨S_, .f32⟩
  | 73 => ⟨S4x2048x2048x1, .f32⟩
  | 74 => ⟨S4x2048x2048x1, .f32⟩
  | 75 => ⟨S_, .f32⟩
  | 76 => ⟨S4x2048x2048x1, .f32⟩
  | 77 => ⟨S4x2048x2048x1, .f32⟩
  | 78 => ⟨S4x2048x2048x1, .f32⟩
  | 79 => ⟨S_, .f32⟩
  | 80 => ⟨S4x2048x1, .f32⟩
  | 81 => ⟨S4x2048x1x1, .f32⟩
  | 82 => ⟨S4x1x2048x1, .f32⟩
  | 83 => ⟨S4x2048x2048x1, .f32⟩
  | 84 => ⟨S4x2048x2048x1, .f32⟩
  | 85 => ⟨S4x2048x2048x1, .f32⟩
  | 86 => ⟨S4x2048x2048x1, .f32⟩
  | 87 => ⟨S4x2048x2048x1, .f32⟩
  | 88 => ⟨S_, .f32⟩
  | 89 => ⟨S4x2048x2048x1, .f32⟩
  | 90 => ⟨S4x2048x2048x1, .f32⟩
  | 91 => ⟨S_, .f32⟩
  | 92 => ⟨S4x2048x2048x1, .f32⟩
  | 93 => ⟨S4x2048x2048x1, .f32⟩
  | 94 => ⟨S4x2048x2048x1, .f32⟩
  | 95 => ⟨S_, .f32⟩
  | 96 => ⟨S4x2048x1, .f32⟩
  | 97 => ⟨S4x2048x1x1, .f32⟩
  | 98 => ⟨S4x1x2048x1, .f32⟩
  | 99 => ⟨S4x2048x2048x1, .f32⟩
  | 100 => ⟨S4x2048x2048x1, .f32⟩
  | 101 => ⟨S4x2048x2048x1, .f32⟩
  | 102 => ⟨S4x2048x2048x1, .f32⟩
  | 103 => ⟨S4x2048x2048x1, .f32⟩
  | 104 => ⟨S_, .f32⟩
  | 105 => ⟨S4x2048x2048x1, .f32⟩
  | 106 => ⟨S4x2048x2048x1, .f32⟩
  | 107 => ⟨S_, .f32⟩
  | 108 => ⟨S4x2048x2048x1, .f32⟩
  | 109 => ⟨S4x2048x2048x1, .f32⟩
  | 110 => ⟨S4x2048x2048x1, .f32⟩
  | 111 => ⟨S_, .f32⟩
  | 112 => ⟨S4x2048x1, .f32⟩
  | 113 => ⟨S4x2048x1x1, .f32⟩
  | 114 => ⟨S4x1x2048x1, .f32⟩
  | 115 => ⟨S4x2048x2048x1, .f32⟩
  | 116 => ⟨S4x2048x2048x1, .f32⟩
  | 117 => ⟨S4x2048x2048x1, .f32⟩
  | 118 => ⟨S4x2048x2048x1, .f32⟩
  | 119 => ⟨S4x2048x2048x1, .f32⟩
  | 120 => ⟨S_, .f32⟩
  | 121 => ⟨S4x2048x2048x1, .f32⟩
  | 122 => ⟨S4x2048x2048x1, .f32⟩
  | 123 => ⟨S_, .f32⟩
  | 124 => ⟨S4x2048x2048x1, .f32⟩
  | 125 => ⟨S4x2048x2048x1, .f32⟩
  | 126 => ⟨S4x2048x2048x1, .f32⟩
  | 127 => ⟨S_, .f32⟩
  | _ => ⟨S4x2048x512, .f32⟩

abbrev hbmTy0_1 (i : Nat) : BufTy := match i % 128 with
  | 0 => ⟨S4x2048x1, .f32⟩
  | 1 => ⟨S4x2048x1x1, .f32⟩
  | 2 => ⟨S4x1x2048x1, .f32⟩
  | 3 => ⟨S4x2048x2048x1, .f32⟩
  | 4 => ⟨S4x2048x2048x1, .f32⟩
  | 5 => ⟨S4x2048x2048x1, .f32⟩
  | 6 => ⟨S4x2048x2048x1, .f32⟩
  | 7 => ⟨S4x2048x2048x1, .f32⟩
  | 8 => ⟨S_, .f32⟩
  | 9 => ⟨S4x2048x2048x1, .f32⟩
  | 10 => ⟨S4x2048x2048x1, .f32⟩
  | 11 => ⟨S_, .f32⟩
  | 12 => ⟨S4x2048x2048x1, .f32⟩
  | 13 => ⟨S4x2048x2048x1, .f32⟩
  | 14 => ⟨S4x2048x2048x1, .f32⟩
  | 15 => ⟨S_, .f32⟩
  | 16 => ⟨S4x2048x1, .f32⟩
  | 17 => ⟨S4x2048x1x1, .f32⟩
  | 18 => ⟨S4x1x2048x1, .f32⟩
  | 19 => ⟨S4x2048x2048x1, .f32⟩
  | 20 => ⟨S4x2048x2048x1, .f32⟩
  | 21 => ⟨S4x2048x2048x1, .f32⟩
  | 22 => ⟨S4x2048x2048x1, .f32⟩
  | 23 => ⟨S4x2048x2048x1, .f32⟩
  | 24 => ⟨S_, .f32⟩
  | 25 => ⟨S4x2048x2048x1, .f32⟩
  | 26 => ⟨S4x2048x2048x1, .f32⟩
  | 27 => ⟨S_, .f32⟩
  | 28 => ⟨S4x2048x2048x1, .f32⟩
  | 29 => ⟨S4x2048x2048x1, .f32⟩
  | 30 => ⟨S4x2048x2048x1, .f32⟩
  | 31 => ⟨S_, .f32⟩
  | 32 => ⟨S4x2048x1, .f32⟩
  | 33 => ⟨S4x2048x1x1, .f32⟩
  | 34 => ⟨S4x1x2048x1, .f32⟩
  | 35 => ⟨S4x2048x2048x1, .f32⟩
  | 36 => ⟨S4x2048x2048x1, .f32⟩
  | 37 => ⟨S4x2048x2048x1, .f32⟩
  | 38 => ⟨S4x2048x2048x1, .f32⟩
  | 39 => ⟨S4x2048x2048x1, .f32⟩
  | 40 => ⟨S_, .f32⟩
  | 41 => ⟨S4x2048x2048x1, .f32⟩
  | 42 => ⟨S4x2048x2048x1, .f32⟩
  | 43 => ⟨S_, .f32⟩
  | 44 => ⟨S4x2048x2048x1, .f32⟩
  | 45 => ⟨S4x2048x2048x1, .f32⟩
  | 46 => ⟨S4x2048x2048x1, .f32⟩
  | 47 => ⟨S_, .f32⟩
  | 48 => ⟨S4x2048x1, .f32⟩
  | 49 => ⟨S4x2048x1x1, .f32⟩
  | 50 => ⟨S4x1x2048x1, .f32⟩
  | 51 => ⟨S4x2048x2048x1, .f32⟩
  | 52 => ⟨S4x2048x2048x1, .f32⟩
  | 53 => ⟨S4x2048x2048x1, .f32⟩
  | 54 => ⟨S4x2048x2048x1, .f32⟩
  | 55 => ⟨S4x2048x2048x1, .f32⟩
  | 56 => ⟨S_, .f32⟩
  | 57 => ⟨S4x2048x2048x1, .f32⟩
  | 58 => ⟨S4x2048x2048x1, .f32⟩
  | 59 => ⟨S_, .f32⟩
  | 60 => ⟨S4x2048x2048x1, .f32⟩
  | 61 => ⟨S4x2048x2048x1, .f32⟩
  | _ => ⟨S4x2048x512, .f32⟩

abbrev hbmTy (i : Nat) : BufTy := match i / 128 with
  | 0 => hbmTy0_0 i
  | 1 => hbmTy0_1 i
  | _ => ⟨S4x2048x512, .f32⟩

abbrev bufTy : (tb : Table) → Fin (tcTables nBuf tb) → BufTy
  | .hbm, ⟨i, _⟩ => hbmTy i
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_v47 : Ref sig .tc := ⟨.hbm, 58, rfl⟩
abbrev main_cst_7 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_8 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_9 : Ref sig .tc := ⟨.hbm, 72, rfl⟩
abbrev main_v59 : Ref sig .tc := ⟨.hbm, 73, rfl⟩
abbrev main_v60 : Ref sig .tc := ⟨.hbm, 74, rfl⟩
abbrev main_cst_10 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_11 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_cst_12 : Ref sig .tc := ⟨.hbm, 88, rfl⟩
abbrev main_v72 : Ref sig .tc := ⟨.hbm, 89, rfl⟩
abbrev main_v73 : Ref sig .tc := ⟨.hbm, 90, rfl⟩
abbrev main_cst_13 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_cst_14 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_cst_15 : Ref sig .tc := ⟨.hbm, 104, rfl⟩
abbrev main_v85 : Ref sig .tc := ⟨.hbm, 105, rfl⟩
abbrev main_v86 : Ref sig .tc := ⟨.hbm, 106, rfl⟩
abbrev main_cst_16 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_cst_17 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_cst_18 : Ref sig .tc := ⟨.hbm, 120, rfl⟩
abbrev main_v98 : Ref sig .tc := ⟨.hbm, 121, rfl⟩
abbrev main_v99 : Ref sig .tc := ⟨.hbm, 122, rfl⟩
abbrev main_cst_19 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_cst_20 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_cst_21 : Ref sig .tc := ⟨.hbm, 136, rfl⟩
abbrev main_v111 : Ref sig .tc := ⟨.hbm, 137, rfl⟩
abbrev main_v112 : Ref sig .tc := ⟨.hbm, 138, rfl⟩
abbrev main_cst_22 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_cst_23 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_cst_24 : Ref sig .tc := ⟨.hbm, 152, rfl⟩
abbrev main_v124 : Ref sig .tc := ⟨.hbm, 153, rfl⟩
abbrev main_v125 : Ref sig .tc := ⟨.hbm, 154, rfl⟩
abbrev main_cst_25 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_cst_26 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_cst_27 : Ref sig .tc := ⟨.hbm, 168, rfl⟩
abbrev main_v137 : Ref sig .tc := ⟨.hbm, 169, rfl⟩
abbrev main_v138 : Ref sig .tc := ⟨.hbm, 170, rfl⟩
abbrev main_cst_28 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_cst_29 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_cst_30 : Ref sig .tc := ⟨.hbm, 184, rfl⟩
abbrev main_v150 : Ref sig .tc := ⟨.hbm, 185, rfl⟩
abbrev main_v151 : Ref sig .tc := ⟨.hbm, 186, rfl⟩
abbrev main_cst_31 : Ref sig .tc := ⟨.hbm, 187, rfl⟩
abbrev main_v152 : Ref sig .tc := ⟨.hbm, 188, rfl⟩
abbrev main_v153 : Ref sig .tc := ⟨.hbm, 189, rfl⟩

abbrev nD : Nat := 1
abbrev τ : Topo := Topo.v7x

variable {F : FTy → Type} [FloatOps F]

class Facts₀ : Prop where
  transposes_S1x2048x2048_S1x2048x2048_0_2_1 : S1x2048x2048.Transposes [0, 2, 1] S1x2048x2048
  bcast_S_S1x2048x2048 : S_.BroadcastsInDim S1x2048x2048 (![] : Fin 0 → Fin S1x2048x2048.rank)
  shapeCasts_S1x2048x2048_S2048x2048 : S1x2048x2048.ShapeCasts S2048x2048
  reducesTo_S4x2048x512_S4x2048_d2 : S4x2048x512.ReducesTo [2] S4x2048
  h_S_ : 0 < S_.numel
  bcast_S4x2048_S4x2048x1_0_1 : S4x2048.BroadcastsInDim S4x2048x1 (![0, 1] : Fin 2 → Fin S4x2048x1.rank)
  transposes_S4x2048x1_S4x1x2048_0_2_1 : S4x2048x1.Transposes [0, 2, 1] S4x1x2048
  bcast_S4x2048x1_S4x2048x2048_0_1_2 : S4x2048x1.BroadcastsInDim S4x2048x2048 (![0, 1, 2] : Fin 3 → Fin S4x2048x2048.rank)
  bcast_S4x1x2048_S4x2048x2048_0_1_2 : S4x1x2048.BroadcastsInDim S4x2048x2048 (![0, 1, 2] : Fin 3 → Fin S4x2048x2048.rank)
  transposes_S4x2048x512_S4x512x2048_0_2_1 : S4x2048x512.Transposes [0, 2, 1] S4x512x2048
  bcast_S2048x2048_S1x2048x2048_1_2 : S2048x2048.BroadcastsInDim S1x2048x2048 (![1, 2] : Fin 2 → Fin S1x2048x2048.rank)
  bcast_S1x2048x2048_S4x2048x2048_0_1_2 : S1x2048x2048.BroadcastsInDim S4x2048x2048 (![0, 1, 2] : Fin 3 → Fin S4x2048x2048.rank)
  bcast_S4x2048x2048_S4x2048x2048x1_0_1_2 : S4x2048x2048.BroadcastsInDim S4x2048x2048x1 (![0, 1, 2] : Fin 3 → Fin S4x2048x2048x1.rank)
  bcast_S_S2048x1 : S_.BroadcastsInDim S2048x1 (![] : Fin 0 → Fin S2048x1.rank)
  bcast_S2048x1_S1x2048x1_1_2 : S2048x1.BroadcastsInDim S1x2048x1 (![1, 2] : Fin 2 → Fin S1x2048x1.rank)
  bcast_S1x2048x1_S1x1x2048x1_1_2_3 : S1x2048x1.BroadcastsInDim S1x1x2048x1 (![1, 2, 3] : Fin 3 → Fin S1x1x2048x1.rank)
  bcast_S1x1x2048x1_S4x2048x2048x1_0_1_2_3 : S1x1x2048x1.BroadcastsInDim S4x2048x2048x1 (![0, 1, 2, 3] : Fin 4 → Fin S4x2048x2048x1.rank)
  reducesTo_S4x2048x2048x1_S4x2048x1_d2 : S4x2048x2048x1.ReducesTo [2] S4x2048x1
  bcast_S4x2048x1_S4x2048x1x1_0_1_3 : S4x2048x1.BroadcastsInDim S4x2048x1x1 (![0, 1, 3] : Fin 3 → Fin S4x2048x1x1.rank)
  bcast_S4x2048x1_S4x1x2048x1_0_2_3 : S4x2048x1.BroadcastsInDim S4x1x2048x1 (![0, 2, 3] : Fin 3 → Fin S4x1x2048x1.rank)
  bcast_S4x1x2048x1_S4x2048x2048x1_0_1_2_3 : S4x1x2048x1.BroadcastsInDim S4x2048x2048x1 (![0, 1, 2, 3] : Fin 4 → Fin S4x2048x2048x1.rank)
  bcast_S4x2048x1x1_S4x2048x2048x1_0_1_2_3 : S4x2048x1x1.BroadcastsInDim S4x2048x2048x1 (![0, 1, 2, 3] : Fin 4 → Fin S4x2048x2048x1.rank)
  bcast_S_S4x2048x2048x1 : S_.BroadcastsInDim S4x2048x2048x1 (![] : Fin 0 → Fin S4x2048x2048x1.rank)
  dot_S4x2048x512_S4x512x2048_S4x2048x2048_2_1_1_2_0_0_wf : DotDims.WF S4x2048x512 S4x512x2048 S4x2048x2048 [2] [1] [1] [2] [0] [0]

variable [Facts₀]

def dot_S4x2048x512_S4x512x2048_S4x2048x2048_2_1_1_2_0_0 : DotDims S4x2048x512 S4x512x2048 S4x2048x2048 where
  lhsContracting := [2]
  rhsContracting := [1]
  lhsNonContracting := [1]
  rhsNonContracting := [2]
  lhsBatch := [0]
  rhsBatch := [0]
  wf := dot_S4x2048x512_S4x512x2048_S4x2048x2048_2_1_1_2_0_0_wf

class Facts : Prop extends Facts₀ where

variable [Facts]
-- ==== Proof.CrfSpec.lean ====
/-
  The mean-field update both programs compute, written once over coordinates.

  For a batch `b`, rows `i j` and a feature coordinate `d`: the squared norm of row `i` is `∑ d, f b i d * f b i d`, the norm
  its square root, the symmetrised weight `(w i j + w j i) / 2`.  The pairwise potential is the cosine of rows `i` and `j`
  times that weight; the two programs spell the cosine differently — one divides the dot product of the rows by the
  product of their norms (`potQuot`), the other divides every entry by its row's norm first and multiplies afterwards
  (`potNorm`).  With `p` the potential and `l` the unary term, the update keeps, for each row `i`, one number
  `s i = ∑ k, p i k * σ (l k + s' i)`, started from `∑ k, p i k / 2`; one program carries the whole table
  `q i j = σ (l j + s i)` and spells the logistic `σ x` as `1 / (1 + exp (-x))` (`stepTable`), the other carries only `s` and spells
  it `1/2 + 1/2 · tanh (x / 2)` (`stepRow`).  Everything is stated on the extended reals with the operations' exact meanings.
-/
import Idealize.ShloMosaic.PureOps.Ideal

noncomputable section

namespace Cert.Crf

open Idealize.ShloMosaic

variable {B R N D : Type} [Fintype N] [Fintype D]

/-- One half, as an extended real. -/
def half : EReal := ((1 / 2 : ℝ) : EReal)

/-- The squared norm of row `i` of batch `b`. -/
def nrm2 (f : B → N → D → EReal) (b : B) (i : N) : EReal := ∑ d, f b i d * f b i d

/-- The norm of row `i` of batch `b`. -/
def nrm (f : B → N → D → EReal) (b : B) (i : N) : EReal := Ideal.sqrt (nrm2 f b i)

/-- The symmetrised weight. -/
def wsym (w : N → N → EReal) (i j : N) : EReal := (w i j + w j i) * half

/-- The potential with the cosine as the rows' dot product over the product of their norms. -/
def potQuot (f : B → N → D → EReal) (w : N → N → EReal) (b : B) (i j : N) : EReal :=
  Ideal.div (∑ d, f b i d * f b j d) (nrm f b i * nrm f b j) * wsym w i j

/-- The potential with the cosine as the dot product of the rows divided by their norms entry by entry. -/
def potNorm (f : B → N → D → EReal) (w : N → N → EReal) (b : B) (i j : N) : EReal :=
  (∑ d, Ideal.div (f b i d) (nrm f b i) * Ideal.div (f b j d) (nrm f b j)) * wsym w i j

/-- The logistic function spelt with the exponential. -/
def sigExp (x : EReal) : EReal := Ideal.div 1 (1 + Ideal.exp (-x))

/-- The logistic function spelt with the hyperbolic tangent. -/
def sigTanh (x : EReal) : EReal := half + half * Ideal.tanh (half * x)

/-- One update of the whole table. -/
def stepTable (p : B → N → N → EReal) (l : B → N → EReal) (q : B → N → N → EReal) : B → N → N → EReal :=
  fun b i j => sigExp (l b j + ∑ k, p b i k * q b i k)

/-- Ten updates of the table from the constant one half. -/
def outTable (p : B → N → N → EReal) (l : B → N → EReal) : B → N → N → EReal :=
  (stepTable p l)^[10] (fun _ _ _ => half)

/-- The first row sums: half the potential's row sum.  (The rows `R` of the potential need not be all of `N`: a row's
    update reads no other row, so the same text serves a block of rows.) -/
def rowStart (p : B → R → N → EReal) (b : B) (i : R) : EReal := half * ∑ j, p b i j

/-- One update of the row sums. -/
def stepRow (p : B → R → N → EReal) (l : B → N → EReal) (s : B → R → EReal) : B → R → EReal :=
  fun b i => ∑ j, p b i j * sigTanh (l b j + s b i)

/-- Nine updates of the row sums, then the table read off them. -/
def outRow (p : B → R → N → EReal) (l : B → N → EReal) : B → R → N → EReal :=
  fun b i j => sigTanh (l b j + (stepRow p l)^[9] (rowStart p) b i)

/-- Rows are updated independently: the update of a family of rows picked out of a larger potential is the larger
    update read at those rows. -/
theorem outRow_rows {B' R' : Type} (p : B → R → N → EReal) (l : B → N → EReal) (g : B' → B) (φ : B' → R' → R) :
    outRow (fun b r j => p (g b) (φ b r) j) (fun b j => l (g b) j) = fun b r j => outRow p l (g b) (φ b r) j := by
  have h : ∀ n : ℕ, (stepRow (fun b r j => p (g b) (φ b r) j) (fun b j => l (g b) j))^[n] (rowStart fun b r j => p (g b) (φ b r) j)
      = fun b r => (stepRow p l)^[n] (rowStart p) (g b) (φ b r) := by
    intro n
    induction n with
    | zero => rfl
    | succ n ih => rw [Function.iterate_succ_apply', ih]; funext b r; rw [Function.iterate_succ_apply']; rfl
  funext b r j
  unfold outRow
  rw [h 9]

end Cert.Crf

end
-- ==== Proof.CrfAlgebra.lean ====
/-
  The algebra of the mean-field update: under finite inputs and nonzero rows, the two spellings of the update
  compute the same extended reals.

  Every table is the image of a real table, so the whole computation takes place in the reals and the
  only work is pushing the coercion of the reals into the extended reals through sums, products, quotients,
  the square root, the exponential and the hyperbolic tangent.  Over the reals three facts remain:
  a sum of products of quotients is the quotient of the sum of products; the logistic function is
  one half plus one half of the hyperbolic tangent of the half argument; and the table carried by one
  spelling is, at every step, the logistic function of the unary term plus the row sum carried by the other.
-/
import proofs.«112759_j2671469658740_2_alg».proof.Proof.CrfSpec

noncomputable section

namespace Cert.Crf

open Idealize.ShloMosaic

variable {B R N D : Type} [Fintype N] [Fintype D]

/-! ### The coercion and finite sums -/

/-- The coercion of a finite sum of reals is the sum of the coercions. -/
theorem coe_finset_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-! ### The real tables -/

/-- The squared norm of a real row. -/
def rnrm2 (f : B → N → D → ℝ) (b : B) (i : N) : ℝ := ∑ d, f b i d * f b i d

/-- The symmetrised real weight. -/
def rwsym (w : N → N → ℝ) (i j : N) : ℝ := (w i j + w j i) * (1 / 2)

/-- The real potential: the cosine of rows i and j times the symmetrised weight. -/
def rpot (f : B → N → D → ℝ) (w : N → N → ℝ) (b : B) (i j : N) : ℝ :=
  (∑ d, f b i d * f b j d) / (Real.sqrt (rnrm2 f b i) * Real.sqrt (rnrm2 f b j)) * rwsym w i j

/-- The real logistic function. -/
def rsig (x : ℝ) : ℝ := (1 + Real.exp (-x))⁻¹

/-- The first real row sums (the rows of the potential need not be all of the columns' index type). -/
def rrowStart (p : B → R → N → ℝ) (b : B) (i : R) : ℝ := (1 / 2) * ∑ j, p b i j

/-- One update of the real row sums. -/
def rstepRow (p : B → R → N → ℝ) (l : B → N → ℝ) (s : B → R → ℝ) : B → R → ℝ :=
  fun b i => ∑ j, p b i j * rsig (l b j + s b i)

/-! ### Facts over the reals -/

/-- Dividing every entry by its row's norm and multiplying afterwards is dividing the dot product by the product
    of the norms. -/
theorem sum_div_mul_div {ι : Type} (s : Finset ι) (a c : ι → ℝ) (n m : ℝ) :
    ∑ d ∈ s, (a d * (1 / n)) * (c d * (1 / m)) = (∑ d ∈ s, a d * c d) / (n * m) := by
  rw [Finset.sum_div]
  refine Finset.sum_congr rfl fun d _ => ?_
  rw [one_div, one_div, div_eq_mul_inv, mul_inv]
  ring

/-- The logistic function is one half plus one half of the hyperbolic tangent of the half argument. -/
theorem half_add_half_tanh (x : ℝ) : 1 / 2 + 1 / 2 * Real.tanh (1 / 2 * x) = rsig x := by
  have he : 0 < Real.exp (1 / 2 * x) := Real.exp_pos _
  have h1 : Real.exp (-(1 / 2 * x)) = (Real.exp (1 / 2 * x))⁻¹ := Real.exp_neg _
  have h2 : Real.exp (-x) = (Real.exp (1 / 2 * x))⁻¹ * (Real.exp (1 / 2 * x))⁻¹ := by
    rw [← h1, ← Real.exp_add]; congr 1; ring
  rw [rsig, Real.tanh_eq_sinh_div_cosh, Real.sinh_eq, Real.cosh_eq, h2, h1]
  generalize Real.exp (1 / 2 * x) = e at he
  have hne : e ≠ 0 := he.ne'
  have h3 : e * e + 1 ≠ 0 := by positivity
  field_simp
  ring

/-! ### Pushing the coercion through the specification -/

/-- The squared norm of a coerced row is the coercion of the real squared norm. -/
theorem nrm2_coe (f : B → N → D → ℝ) (b : B) (i : N) :
    nrm2 (fun b i d => (f b i d : EReal)) b i = (rnrm2 f b i : EReal) := by
  unfold nrm2 rnrm2
  rw [coe_finset_sum]
  refine Finset.sum_congr rfl fun d _ => ?_
  rw [EReal.coe_mul]

/-- The norm of a coerced row is the coercion of the real square root (the squared norm is not negative). -/
theorem nrm_coe (f : B → N → D → ℝ) (b : B) (i : N) :
    nrm (fun b i d => (f b i d : EReal)) b i = (Real.sqrt (rnrm2 f b i) : EReal) := by
  have h0 : 0 ≤ rnrm2 f b i := Finset.sum_nonneg fun d _ => mul_self_nonneg _
  unfold nrm
  rw [nrm2_coe, Ideal.sqrt_coe, if_neg (not_lt.mpr h0)]

/-- The symmetrised weight of a coerced table. -/
theorem wsym_coe (w : N → N → ℝ) (i j : N) :
    wsym (fun i j => (w i j : EReal)) i j = (rwsym w i j : EReal) := by
  unfold wsym rwsym half
  rw [EReal.coe_mul, EReal.coe_add]

/-- The potential spelt with one quotient, on coerced tables with nonzero rows, is the real potential. -/
theorem potQuot_coe (f : B → N → D → ℝ) (w : N → N → ℝ) (hpos : ∀ b i, 0 < rnrm2 f b i) (b : B) (i j : N) :
    potQuot (fun b i d => (f b i d : EReal)) (fun i j => (w i j : EReal)) b i j = (rpot f w b i j : EReal) := by
  have hi : Real.sqrt (rnrm2 f b i) ≠ 0 := (Real.sqrt_pos.mpr (hpos b i)).ne'
  have hj : Real.sqrt (rnrm2 f b j) ≠ 0 := (Real.sqrt_pos.mpr (hpos b j)).ne'
  unfold potQuot rpot
  rw [nrm_coe, nrm_coe, wsym_coe, ← EReal.coe_mul, Ideal.div_coe (mul_ne_zero hi hj)]
  have hs : (∑ d, (f b i d : EReal) * (f b j d : EReal)) = ((∑ d, f b i d * f b j d : ℝ) : EReal) := by
    rw [coe_finset_sum]
    refine Finset.sum_congr rfl fun d _ => ?_
    rw [EReal.coe_mul]
  rw [hs, ← EReal.coe_mul, ← EReal.coe_mul, mul_one_div]

/-- The potential spelt with entrywise quotients, on coerced tables with nonzero rows, is the real potential. -/
theorem potNorm_coe (f : B → N → D → ℝ) (w : N → N → ℝ) (hpos : ∀ b i, 0 < rnrm2 f b i) (b : B) (i j : N) :
    potNorm (fun b i d => (f b i d : EReal)) (fun i j => (w i j : EReal)) b i j = (rpot f w b i j : EReal) := by
  have hi : Real.sqrt (rnrm2 f b i) ≠ 0 := (Real.sqrt_pos.mpr (hpos b i)).ne'
  have hj : Real.sqrt (rnrm2 f b j) ≠ 0 := (Real.sqrt_pos.mpr (hpos b j)).ne'
  unfold potNorm rpot
  rw [nrm_coe, nrm_coe, wsym_coe]
  have hs : (∑ d, Ideal.div (f b i d : EReal) (Real.sqrt (rnrm2 f b i) : EReal)
        * Ideal.div (f b j d : EReal) (Real.sqrt (rnrm2 f b j) : EReal))
      = ((∑ d, (f b i d * (1 / Real.sqrt (rnrm2 f b i))) * (f b j d * (1 / Real.sqrt (rnrm2 f b j))) : ℝ) : EReal) := by
    rw [coe_finset_sum]
    refine Finset.sum_congr rfl fun d _ => ?_
    rw [Ideal.div_coe hi, Ideal.div_coe hj, EReal.coe_mul, EReal.coe_mul, EReal.coe_mul]
  rw [hs, sum_div_mul_div, ← EReal.coe_mul]

/-- The logistic function spelt with the exponential, at a real. -/
theorem sigExp_coe (x : ℝ) : sigExp (x : EReal) = (rsig x : EReal) := by
  unfold sigExp rsig
  exact Ideal.logistic_coe x

/-- The logistic function spelt with the hyperbolic tangent, at a real. -/
theorem sigTanh_coe (x : ℝ) : sigTanh (x : EReal) = (rsig x : EReal) := by
  unfold sigTanh half
  rw [← EReal.coe_mul, Ideal.tanh_coe, ← EReal.coe_mul, ← EReal.coe_add, half_add_half_tanh]

/-! ### The iteration -/

/-- The first row sums of a coerced potential. -/
theorem rowStart_coe (p : B → R → N → ℝ) (b : B) (i : R) :
    rowStart (fun b i j => (p b i j : EReal)) b i = (rrowStart p b i : EReal) := by
  unfold rowStart rrowStart half
  rw [← coe_finset_sum, ← EReal.coe_mul]

/-- One update of coerced row sums is the coercion of the real update. -/
theorem stepRow_coe (p : B → R → N → ℝ) (l : B → N → ℝ) (s : B → R → ℝ) :
    stepRow (fun b i j => (p b i j : EReal)) (fun b j => (l b j : EReal)) (fun b i => (s b i : EReal))
      = fun b i => (rstepRow p l s b i : EReal) := by
  funext b i
  unfold stepRow rstepRow
  rw [coe_finset_sum]
  refine Finset.sum_congr rfl fun j _ => ?_
  rw [← EReal.coe_add, sigTanh_coe, EReal.coe_mul]

/-- Any number of updates of the coerced first row sums is the coercion of the real iteration. -/
theorem iterate_stepRow_coe (p : B → R → N → ℝ) (l : B → N → ℝ) (t : ℕ) :
    (stepRow (fun b i j => (p b i j : EReal)) (fun b j => (l b j : EReal)))^[t]
        (rowStart (fun b i j => (p b i j : EReal)))
      = fun b i => (((rstepRow p l)^[t] (rrowStart p)) b i : EReal) := by
  induction t with
  | zero =>
    funext b i
    rw [Function.iterate_zero, id_eq, Function.iterate_zero, id_eq, rowStart_coe]
  | succ t ih =>
    rw [Function.iterate_succ_apply', ih, stepRow_coe, Function.iterate_succ_apply']

/-- The first update of the table: from the constant one half, the table is the logistic function of the unary term plus
    the first row sum. -/
theorem stepTable_half_coe (p : B → N → N → ℝ) (l : B → N → ℝ) :
    stepTable (fun b i j => (p b i j : EReal)) (fun b j => (l b j : EReal)) (fun _ _ _ => half)
      = fun b i j => (rsig (l b j + rrowStart p b i) : EReal) := by
  funext b i j
  unfold stepTable
  have hs : (∑ k, (p b i k : EReal) * half) = (rrowStart p b i : EReal) := by
    unfold half rrowStart
    rw [Finset.mul_sum, coe_finset_sum]
    refine Finset.sum_congr rfl fun k _ => ?_
    rw [← EReal.coe_mul, mul_comm]
  rw [hs, ← EReal.coe_add, sigExp_coe]

/-- One update of a table that is the logistic function of the unary term plus a row sum: the same shape, with the row
    sum updated. -/
theorem stepTable_coe (p : B → N → N → ℝ) (l : B → N → ℝ) (s : B → N → ℝ) :
    stepTable (fun b i j => (p b i j : EReal)) (fun b j => (l b j : EReal))
        (fun b i j => (rsig (l b j + s b i) : EReal))
      = fun b i j => (rsig (l b j + rstepRow p l s b i) : EReal) := by
  funext b i j
  unfold stepTable
  have hs : (∑ k, (p b i k : EReal) * (rsig (l b k + s b i) : EReal)) = (rstepRow p l s b i : EReal) := by
    unfold rstepRow
    rw [coe_finset_sum]
    refine Finset.sum_congr rfl fun k _ => ?_
    rw [EReal.coe_mul]
  rw [hs, ← EReal.coe_add, sigExp_coe]

/-- After one more update than the row sums, the table is the logistic function of the unary term plus the row sum. -/
theorem iterate_stepTable_coe (p : B → N → N → ℝ) (l : B → N → ℝ) (t : ℕ) :
    (stepTable (fun b i j => (p b i j : EReal)) (fun b j => (l b j : EReal)))^[t + 1] (fun _ _ _ => half)
      = fun b i j => (rsig (l b j + ((rstepRow p l)^[t] (rrowStart p)) b i) : EReal) := by
  induction t with
  | zero =>
    rw [Function.iterate_succ_apply', Function.iterate_zero, id_eq, stepTable_half_coe]
    rfl
  | succ t ih =>
    rw [Function.iterate_succ_apply', ih, stepTable_coe, Function.iterate_succ_apply']

/-- On coerced tables the two spellings of the ten updates agree, whatever the potential. -/
theorem outRow_coe_eq_outTable_coe (p : B → N → N → ℝ) (l : B → N → ℝ) :
    outRow (fun b i j => (p b i j : EReal)) (fun b j => (l b j : EReal))
      = outTable (fun b i j => (p b i j : EReal)) (fun b j => (l b j : EReal)) := by
  unfold outTable
  rw [iterate_stepTable_coe p l 9]
  funext b i j
  unfold outRow
  rw [iterate_stepRow_coe p l 9, ← EReal.coe_add, sigTanh_coe]

/-! ### The statement on the extended reals -/

/-- With finite features, unary terms and weights, and every row of features of positive squared norm, nine updates of the
    row sums over the potential spelt with entrywise quotients, read off through the hyperbolic tangent, give the same
    table as ten updates of the whole table over the potential spelt with one quotient. -/
theorem outRow_potNorm_eq_outTable_potQuot {B N D : Type} [Fintype N] [Fintype D]
    (f : B → N → D → EReal) (l : B → N → EReal) (w : N → N → EReal)
    (hf : ∀ b i d, f b i d ≠ ⊤ ∧ f b i d ≠ ⊥) (hl : ∀ b j, l b j ≠ ⊤ ∧ l b j ≠ ⊥) (hw : ∀ i j, w i j ≠ ⊤ ∧ w i j ≠ ⊥)
    (hpos : ∀ b i, (0 : EReal) < ∑ d, f b i d * f b i d) :
    outRow (potNorm f w) l = outTable (potQuot f w) l := by
  have hf' : f = fun b i d => ((f b i d).toReal : EReal) := by
    funext b i d
    exact (EReal.coe_toReal (hf b i d).1 (hf b i d).2).symm
  have hl' : l = fun b j => ((l b j).toReal : EReal) := by
    funext b j
    exact (EReal.coe_toReal (hl b j).1 (hl b j).2).symm
  have hw' : w = fun i j => ((w i j).toReal : EReal) := by
    funext i j
    exact (EReal.coe_toReal (hw i j).1 (hw i j).2).symm
  have hposr : ∀ b i, 0 < rnrm2 (fun b i d => (f b i d).toReal) b i := by
    intro b i
    have h := hpos b i
    rw [hf'] at h
    have h2 : (∑ d, ((f b i d).toReal : EReal) * ((f b i d).toReal : EReal))
        = (rnrm2 (fun b i d => (f b i d).toReal) b i : EReal) := nrm2_coe (fun b i d => (f b i d).toReal) b i
    rw [h2] at h
    exact EReal.coe_pos.mp h
  have hN : potNorm f w = fun b i j => (rpot (fun b i d => (f b i d).toReal) (fun i j => (w i j).toReal) b i j : EReal) := by
    funext b i j
    rw [hf', hw']
    exact potNorm_coe _ _ hposr b i j
  have hQ : potQuot f w = fun b i j => (rpot (fun b i d => (f b i d).toReal) (fun i j => (w i j).toReal) b i j : EReal) := by
    funext b i j
    rw [hf', hw']
    exact potQuot_coe _ _ hposr b i j
  rw [hN, hQ, hl']
  exact outRow_coe_eq_outTable_coe _ _

end Cert.Crf

end
-- ==== Proof.PreDecode.lean ====
/-
  The precondition, decoded.

  The precondition is the conjunction of four tests, each a conjunction over every entry of an array: the absolute
  value of every entry of the three inputs is below plus infinity, and the sum of the squares along the last axis of
  the first input is above zero at every row.  On the extended reals an absolute value max x (-x) is below plus infinity
  exactly when x is neither infinity, and the sum along the last axis at row (b, i) is the sum over the coordinate d of
  the squares of the entries (b, i, d), started from zero.
-/
import proofs.«112759_j2671469658740_2_alg».proof.Proof.Gen.Pre_finite_inputs
import Idealize.ShloMosaic.Lib.ReduceAll
import Idealize.ShloMosaic.Lib.IdealHost
import Idealize.ShloMosaic.Lib.ValueIdx
import Idealize.ShloMosaic.PureOps.Ideal.Laws

noncomputable section

namespace Cert.PreDecode

open Idealize.ShloMosaic Idealize.ShloMosaic.ValueIdx Cert.Pre_finite_inputs

/-- The scalar shape has one index. -/
instance : Subsingleton S_.Idx := ⟨fun a b => funext fun d => d.elim0⟩

/-- A one-bit word made from a truth value is one exactly when the value is true. -/
theorem ofBool_eq_one {b : Bool} : BitVec.ofBool b = 1#1 ↔ b = true := by cases b <;> decide

/-- The pattern of plus infinity denotes the top of the extended reals. -/
theorem ofBits_inf_f32 : Ideal.ofBits .f32 0x7F800000#32 = ⊤ := by simp [Ideal.ofBits, Ideal.ieee]

/-- An extended real whose absolute value is below plus infinity is neither infinity. -/
theorem finite_of_abs_lt (x : EReal)
    (h : Ideal.cmp .olt (max x (-x)) (Ideal.ofBits .f32 0x7F800000#32) = 1#1) : x ≠ ⊤ ∧ x ≠ ⊥ := by
  rw [ofBits_inf_f32] at h
  change BitVec.ofBool (decide (max x (-x) < ⊤)) = 1#1 at h
  rw [ofBool_eq_one, decide_eq_true_eq] at h
  constructor
  · rintro rfl; simp at h
  · rintro rfl; simp at h

/-- The test "every absolute value is below plus infinity", read back at an entry. -/
theorem finite_of_all_abs_lt {s : Shape} {axes : List (Fin s.rank)} (a : FVec Ideal s .f32)
    (bc : S_.BroadcastsInDim s (![] : Fin 0 → Fin s.rank)) (hr : s.ReducesTo axes S_) (hu : 0 < S_.numel)
    (e : Host.reduce IntOp.andi (cmpf .olt (Host.absf a) (broadcastInDim s ![] bc (constant S_ .f32 0x7F800000#32)))
          (constantI S_ 1 1#1) hr hu ix0 = 1#1)
    (i : s.Idx) : a i ≠ ⊤ ∧ a i ≠ ⊥ :=
  finite_of_abs_lt (a i) (Host.reduce_andi_all _ _ hr hu ix0 e i)

/-- The index (b, i) with the coordinate k put back on the last axis is (b, i, k). -/
theorem lift_last (h : S4x2048x512.Reduces [2] S4x2048) (p : Fin 4) (q : Fin 2048) (k : Fin (S4x2048x512.size 2)) :
    h.lift (ix2 p q) k = ix3 p q (⟨k.val, k.isLt⟩ : Fin 512) := by
  funext c; apply Fin.ext
  fin_cases c <;> rfl

/-- THE PRECONDITION DECODED: every entry of the three inputs is a real, and every row of the first has a positive sum
    of squares. -/
theorem finite_and_pos (a0 : FVec Ideal S4x2048x512 .f32) (a1 : FVec Ideal S4x2048x1 .f32) (a2 : FVec Ideal S1x2048x2048 .f32)
    (h : Cert.Pre_finite_inputs.fn (F := Ideal) a0 a1 a2 = fun _ => 1#1) :
    (∀ i, a0 i ≠ ⊤ ∧ a0 i ≠ ⊥) ∧ (∀ i, a1 i ≠ ⊤ ∧ a1 i ≠ ⊥) ∧ (∀ i, a2 i ≠ ⊤ ∧ a2 i ≠ ⊥)
      ∧ ∀ (b : Fin 4) (i : Fin 2048), (0 : EReal) < ∑ d : Fin 512, a0 (ix3 b i d) * a0 (ix3 b i d) := by
  have e := congrFun h ix0
  dsimp only [fn, fn_part1, andi] at e
  rw [IntOp.andi_eq_one, IntOp.andi_eq_one, IntOp.andi_eq_one] at e
  obtain ⟨⟨⟨e0, e1⟩, e2⟩, e3⟩ := e
  refine ⟨fun i => finite_of_all_abs_lt a0 _ _ _ e0 i, fun i => finite_of_all_abs_lt a1 _ _ _ e1 i,
    fun i => finite_of_all_abs_lt a2 _ _ _ e2 i, fun b i => ?_⟩
  have hR : S4x2048x512.Reduces [2] S4x2048 := by decide
  have p := Host.reduce_andi_all _ _ _ _ ix0 e3 (ix2 b i)
  change BitVec.ofBool (decide (Ideal.ofBits .f32 0x00000000#32
      < Ideal.hostReduceAdd Facts.reducesTo_S4x2048x512_S4x2048_d2 (mulf a0 a0) (Ideal.ofBits .f32 0x00000000#32) (ix2 b i))) = 1#1 at p
  rw [ofBool_eq_one, decide_eq_true_eq, Ideal.ofBits_zero_f32, Ideal.hostReduceAdd_single _ hR, zero_add] at p
  have hs : (∑ k : Fin (S4x2048x512.size 2), mulf a0 a0 (hR.lift (ix2 b i) k))
      = ∑ d : Fin 512, a0 (ix3 b i d) * a0 (ix3 b i d) :=
    Finset.sum_congr rfl fun k _ => by rw [lift_last]; rfl
  rw [hs] at p
  exact p

end Cert.PreDecode

end
-- ==== Proof.RefRead.lean ====
/-
  The reference program's result, read at an entry, is the specification's table.

  The reference computes once the potential
    P[b,i,j] = (⟨f_i, f_j⟩ / (‖f_i‖ · ‖f_j‖)) · (W[i,j] + W[j,i]) · ½
  (the rows' dot products by a batched matrix product with the transpose, the norms as a column and its transpose laid
  over the table, the symmetrised weight laid over the batches), starts from the table that is ½ everywhere, and ten
  times replaces the table Q by
    Q'[b,i,j] = 1 / (1 + exp (−(l[b,j] + ∑ k, P[b,i,k] · Q[b,i,k]))),
  the unary term laid along the table's second axis and the row sums along its third.

  Here: one update written once on whole arrays (`stepVec`) and the starting table (`Q0`); each layout operation of an
  update read at an entry (a scalar laid everywhere, the unary term, the row sums, the sum over the third axis), hence
  one update at an entry (`stepVec_apply`); the potential on whole arrays (`potVec`) and at an entry (`potVec_apply`: the
  norm, the dot products, the product of norms and the symmetrised weight, each at an entry); the run's result as ten
  updates of the starting table (`run_eq_steps`); and, by induction on the number of updates, the result at an entry
  as the specification's ten updates from one half (`result_apply`). Everything on the extended reals, with the
  operations' exact meanings.
-/
import proofs.«112759_j2671469658740_2_alg».proof.Proof.Gen.ReferenceIdeal.Run
import proofs.«112759_j2671469658740_2_alg».proof.Proof.CrfSpec
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

namespace Cert.ReferenceIdeal.RefValue

open Cert.ReferenceIdeal Cert.ReferenceIdeal.Gen Cert.ReferenceIdeal.Value Idealize.ShloMosaic Idealize.ShloMosaic.ValueIdx Idealize.ShloMosaic.StableHlo

/-- One update of the table, on whole arrays: the operations of one iteration of the loop. -/
def stepVec (P : FVec Ideal S4x2048x2048x1 .f32) (l : FVec Ideal S4x2048x1 .f32) (Q : FVec Ideal S4x2048x2048x1 .f32) :
    FVec Ideal S4x2048x2048x1 .f32 :=
  Host.divf (broadcastInDim S4x2048x2048x1 ![] bcast_S_S4x2048x2048x1 (constant (F := Ideal) S_ .f32 0x3F800000#32))
    (addf (broadcastInDim S4x2048x2048x1 ![] bcast_S_S4x2048x2048x1 (constant (F := Ideal) S_ .f32 0x3F800000#32))
      (Host.exp (Host.negf (addf
        (broadcastInDim S4x2048x2048x1 ![0, 1, 2, 3] bcast_S4x1x2048x1_S4x2048x2048x1_0_1_2_3
          (broadcastInDim S4x1x2048x1 ![0, 2, 3] bcast_S4x2048x1_S4x1x2048x1_0_2_3 l))
        (broadcastInDim S4x2048x2048x1 ![0, 1, 2, 3] bcast_S4x2048x1x1_S4x2048x2048x1_0_1_2_3
          (broadcastInDim S4x2048x1x1 ![0, 1, 3] bcast_S4x2048x1_S4x2048x1x1_0_1_3
            (Host.reduceAdd (mulf P Q) (constant (F := Ideal) S_ .f32 0x00000000#32)
              reducesTo_S4x2048x2048x1_S4x2048x1_d2 h_S_)))))))

/-- The starting table: the constant one half, broadcast up to the table's shape. -/
def Q0 : FVec Ideal S4x2048x2048x1 .f32 :=
  broadcastInDim S4x2048x2048x1 ![0, 1, 2, 3] bcast_S1x1x2048x1_S4x2048x2048x1_0_1_2_3
    (broadcastInDim S1x1x2048x1 ![1, 2, 3] bcast_S1x2048x1_S1x1x2048x1_1_2_3
      (broadcastInDim S1x2048x1 ![1, 2] bcast_S2048x1_S1x2048x1_1_2
        (broadcastInDim S2048x1 ![] bcast_S_S2048x1 (constant (F := Ideal) S_ .f32 0x3F000000#32))))

/-! ## The constants -/

theorem one_bits : Ideal.ofBits .f32 0x3F800000#32 = 1 := by
  simp [Ideal.ofBits, Ideal.ieee, -EReal.coe_mul] <;> norm_num

theorem half_bits : Ideal.ofBits .f32 0x3F000000#32 = Cert.Crf.half := by
  simp [Ideal.ofBits, Ideal.ieee, Cert.Crf.half, -EReal.coe_mul] <;> norm_num

/-! ## The layout operations of one update, read at an index -/

/-- The reduced index of a rank-4 array summed over its third axis, with the summed coordinate put back. -/
theorem lift4 {a b c d : ℕ} (h : (⟨4, ![a, b, c, d]⟩ : Shape).Reduces [2] (⟨3, ![a, b, d]⟩ : Shape)) (p : Fin a) (q : Fin b)
    (r : Fin d) (k : Fin ((⟨4, ![a, b, c, d]⟩ : Shape).size 2)) :
    h.lift (ix3 p q r) k = ix4 p q (⟨k.val, k.isLt⟩ : Fin c) r := by
  funext e; apply Fin.ext
  fin_cases e <;> rfl

/-- A scalar broadcast to any shape reads the scalar everywhere. -/
theorem bcScalar_apply {t : Shape} (h : S_.BroadcastsInDim t (![] : Fin 0 → Fin t.rank)) (c : FVec Ideal S_ .f32) (j : t.Idx) :
    broadcastInDim t ![] h c j = c ix0 :=
  broadcastInDim_apply _ h c j ix0 fun a => a.elim0

/-- The unary term `l[b, j, 0]`, laid along the table's second axis: entry `(b, i, j, u)` reads `l (b, j, 0)`. -/
theorem bcUnary_apply (l : FVec Ideal S4x2048x1 .f32) (b : Fin 4) (i j : Fin 2048) (u : Fin 1) :
    broadcastInDim S4x2048x2048x1 ![0, 1, 2, 3] bcast_S4x1x2048x1_S4x2048x2048x1_0_1_2_3
        (broadcastInDim S4x1x2048x1 ![0, 2, 3] bcast_S4x2048x1_S4x1x2048x1_0_2_3 l) (ix4 b i j u)
      = l (ix3 b j (0 : Fin 1)) := by
  refine (broadcastInDim_apply _ _ _ (ix4 b i j u) (ix4 b (0 : Fin 1) j (0 : Fin 1)) fun a => ?_).trans
    (broadcastInDim_apply _ _ l (ix4 b (0 : Fin 1) j (0 : Fin 1)) (ix3 b j (0 : Fin 1)) fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

/-- The row sums `s[b, i, 0]`, laid along the table's third axis: entry `(b, i, j, u)` reads `s (b, i, 0)`. -/
theorem bcRow_apply (s : FVec Ideal S4x2048x1 .f32) (b : Fin 4) (i j : Fin 2048) (u : Fin 1) :
    broadcastInDim S4x2048x2048x1 ![0, 1, 2, 3] bcast_S4x2048x1x1_S4x2048x2048x1_0_1_2_3
        (broadcastInDim S4x2048x1x1 ![0, 1, 3] bcast_S4x2048x1_S4x2048x1x1_0_1_3 s) (ix4 b i j u)
      = s (ix3 b i (0 : Fin 1)) := by
  refine (broadcastInDim_apply _ _ _ (ix4 b i j u) (ix4 b i (0 : Fin 1) (0 : Fin 1)) fun a => ?_).trans
    (broadcastInDim_apply _ _ s (ix4 b i (0 : Fin 1) (0 : Fin 1)) (ix3 b i (0 : Fin 1)) fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

/-- The sum over the table's third axis from the initial value zero, read at `(b, i, u)`. -/
theorem rowSum_apply (x : FVec Ideal S4x2048x2048x1 .f32) (b : Fin 4) (i : Fin 2048) (u : Fin 1) :
    Host.reduceAdd x (constant (F := Ideal) S_ .f32 0x00000000#32) reducesTo_S4x2048x2048x1_S4x2048x1_d2 h_S_ (ix3 b i u)
      = ∑ k : Fin 2048, x (ix4 b i k u) := by
  have hr : S4x2048x2048x1.Reduces [2] S4x2048x1 := by decide
  show Ideal.hostReduceAdd reducesTo_S4x2048x2048x1_S4x2048x1_d2 x (Ideal.ofBits .f32 0x00000000#32) (ix3 b i u) = _
  rw [Ideal.hostReduceAdd_single _ hr, Ideal.ofBits_zero_f32, zero_add]
  exact Finset.sum_congr rfl fun k _ => congrArg x (lift4 hr b i u k)

/-- The logistic function as the program spells it on arrays, at one entry. -/
theorem sig_apply {s : Shape} (c c' x : FVec Ideal s .f32) (i : s.Idx) :
    Host.divf c (addf c' (Host.exp (Host.negf x))) i = Ideal.div (c i) (c' i + Ideal.exp (-(x i))) := rfl

/-- ONE UPDATE READ AT AN ENTRY: the logistic function of the unary term plus the row's sum of products. -/
theorem stepVec_apply (P : FVec Ideal S4x2048x2048x1 .f32) (l : FVec Ideal S4x2048x1 .f32) (Q : FVec Ideal S4x2048x2048x1 .f32)
    (b : Fin 4) (i j : Fin 2048) (u : Fin 1) :
    stepVec P l Q (ix4 b i j u)
      = Cert.Crf.sigExp (l (ix3 b j (0 : Fin 1)) + ∑ k : Fin 2048, P (ix4 b i k (0 : Fin 1)) * Q (ix4 b i k (0 : Fin 1))) := by
  unfold stepVec
  rw [sig_apply, bcScalar_apply, addf_apply, bcUnary_apply, bcRow_apply, rowSum_apply, constant_apply, one_bits]
  rfl

/-! ## The starting table read at an entry -/

theorem Q0_apply (b : Fin 4) (i j : Fin 2048) (u : Fin 1) : Q0 (ix4 b i j u) = Cert.Crf.half := by
  unfold Q0
  rw [broadcastInDim_apply _ _ _ (ix4 b i j u) (ix4 (0 : Fin 1) (0 : Fin 1) j (0 : Fin 1))
      (fun a => match a with | ⟨0, _⟩ => rfl | ⟨1, _⟩ => rfl | ⟨2, _⟩ => rfl | ⟨3, _⟩ => rfl),
    broadcastInDim_apply _ _ _ (ix4 (0 : Fin 1) (0 : Fin 1) j (0 : Fin 1)) (ix3 (0 : Fin 1) j (0 : Fin 1))
      (fun a => match a with | ⟨0, _⟩ => rfl | ⟨1, _⟩ => rfl | ⟨2, _⟩ => rfl),
    broadcastInDim_apply _ _ _ (ix3 (0 : Fin 1) j (0 : Fin 1)) (ix2 j (0 : Fin 1))
      (fun a => match a with | ⟨0, _⟩ => rfl | ⟨1, _⟩ => rfl),
    bcScalar_apply, constant_apply, half_bits]

/-! ## The potential, on whole arrays, and read at an entry -/

/-- The rows' norms kept as a column: the square root of each row's sum of squares. -/
def normVec (A : FVec Ideal S4x2048x512 .f32) : FVec Ideal S4x2048x1 .f32 :=
  Host.sqrt (broadcastInDim S4x2048x1 ![0, 1] bcast_S4x2048_S4x2048x1_0_1
    (Host.reduceAdd (mulf A A) (constant (F := Ideal) S_ .f32 0x00000000#32) reducesTo_S4x2048x512_S4x2048_d2 h_S_))

/-- The potential: the rows' dot products over the products of their norms, times the symmetrised weight. -/
def potVec (A : FVec Ideal S4x2048x512 .f32) (W : FVec Ideal S1x2048x2048 .f32) : FVec Ideal S4x2048x2048x1 .f32 :=
  broadcastInDim S4x2048x2048x1 ![0, 1, 2] bcast_S4x2048x2048_S4x2048x2048x1_0_1_2
    (mulf
      (Host.divf
        (Host.dotGeneral dot_S4x2048x512_S4x512x2048_S4x2048x2048_2_1_1_2_0_0 none A
          (transpose S4x512x2048 [0, 2, 1] A transposes_S4x2048x512_S4x512x2048_0_2_1))
        (mulf (broadcastInDim S4x2048x2048 ![0, 1, 2] bcast_S4x2048x1_S4x2048x2048_0_1_2 (normVec A))
          (broadcastInDim S4x2048x2048 ![0, 1, 2] bcast_S4x1x2048_S4x2048x2048_0_1_2
            (transpose S4x1x2048 [0, 2, 1] (normVec A) transposes_S4x2048x1_S4x1x2048_0_2_1))))
      (broadcastInDim S4x2048x2048 ![0, 1, 2] bcast_S1x2048x2048_S4x2048x2048_0_1_2
        (broadcastInDim S1x2048x2048 ![1, 2] bcast_S2048x2048_S1x2048x2048_1_2
          (shapeCast S2048x2048
            (mulf (addf W (transpose S1x2048x2048 [0, 2, 1] W transposes_S1x2048x2048_S1x2048x2048_0_2_1))
              (broadcastInDim S1x2048x2048 ![] bcast_S_S1x2048x2048 (constant (F := Ideal) S_ .f32 0x3F000000#32)))
            shapeCasts_S1x2048x2048_S2048x2048))))

/-- The reduced index of a rank-3 array summed over its last axis, with the summed coordinate put back. -/
theorem lift3 {a b d : ℕ} (h : (⟨3, ![a, b, d]⟩ : Shape).Reduces [2] (⟨2, ![a, b]⟩ : Shape)) (p : Fin a) (q : Fin b)
    (k : Fin ((⟨3, ![a, b, d]⟩ : Shape).size 2)) : h.lift (ix2 p q) k = ix3 p q (⟨k.val, k.isLt⟩ : Fin d) := by
  funext c; apply Fin.ext
  fin_cases c <;> rfl

/-- The host's square root and quotient are entry by entry. -/
theorem hostSqrt_apply {s : Shape} (x : FVec Ideal s .f32) (i : s.Idx) : Host.sqrt x i = Ideal.sqrt (x i) := rfl
theorem hostDivf_apply {s : Shape} (x y : FVec Ideal s .f32) (i : s.Idx) : Host.divf x y i = Ideal.div (x i) (y i) := rfl

/-- The sum over the last axis of the feature array from the initial value zero, read at `(b, i)`. -/
theorem rowSum3_apply (x : FVec Ideal S4x2048x512 .f32) (b : Fin 4) (i : Fin 2048) :
    Host.reduceAdd x (constant (F := Ideal) S_ .f32 0x00000000#32) reducesTo_S4x2048x512_S4x2048_d2 h_S_ (ix2 b i)
      = ∑ d : Fin 512, x (ix3 b i d) := by
  have hr : S4x2048x512.Reduces [2] S4x2048 := by decide
  show Ideal.hostReduceAdd reducesTo_S4x2048x512_S4x2048_d2 x (Ideal.ofBits .f32 0x00000000#32) (ix2 b i) = _
  rw [Ideal.hostReduceAdd_single _ hr, Ideal.ofBits_zero_f32, zero_add]
  exact Finset.sum_congr rfl fun k _ => congrArg x (lift3 hr b i k)

/-- A row's norm: the square root of the sum of its squares. -/
theorem normVec_apply (A : FVec Ideal S4x2048x512 .f32) (b : Fin 4) (i : Fin 2048) (u : Fin 1) :
    normVec A (ix3 b i u) = Ideal.sqrt (∑ d : Fin 512, A (ix3 b i d) * A (ix3 b i d)) := by
  unfold normVec
  rw [hostSqrt_apply,
    broadcastInDim_apply _ _ _ (ix3 b i u) (ix2 b i) (fun a => match a with | ⟨0, _⟩ => rfl | ⟨1, _⟩ => rfl),
    rowSum3_apply]
  rfl

/-- The rows' dot products: entry `(b, i, j)` of the array times its transpose. -/
theorem gram_apply (A : FVec Ideal S4x2048x512 .f32) (b : Fin 4) (i j : Fin 2048) :
    Host.dotGeneral dot_S4x2048x512_S4x512x2048_S4x2048x2048_2_1_1_2_0_0 none A
        (transpose S4x512x2048 [0, 2, 1] A transposes_S4x2048x512_S4x512x2048_0_2_1) (ix3 b i j)
      = ∑ d : Fin 512, A (ix3 b i d) * A (ix3 b j d) := by
  refine (StackMember.dotGeneral_stack_apply (G := 4) (m := 2048) (n := 2048) (k := 512)
    dot_S4x2048x512_S4x512x2048_S4x2048x2048_2_1_1_2_0_0.wf none A _ b i j).trans ?_
  exact Finset.sum_congr rfl fun d _ => by rw [transpose_ix3_021_apply]

/-- The product of the norms of rows `i` and `j`, from the column of norms and its transpose. -/
theorem normProd_apply (n : FVec Ideal S4x2048x1 .f32) (b : Fin 4) (i j : Fin 2048) :
    mulf (broadcastInDim S4x2048x2048 ![0, 1, 2] bcast_S4x2048x1_S4x2048x2048_0_1_2 n)
        (broadcastInDim S4x2048x2048 ![0, 1, 2] bcast_S4x1x2048_S4x2048x2048_0_1_2
          (transpose S4x1x2048 [0, 2, 1] n transposes_S4x2048x1_S4x1x2048_0_2_1)) (ix3 b i j)
      = n (ix3 b i (0 : Fin 1)) * n (ix3 b j (0 : Fin 1)) := by
  rw [mulf_apply,
    broadcastInDim_apply _ _ n (ix3 b i j) (ix3 b i (0 : Fin 1))
      (fun a => match a with | ⟨0, _⟩ => rfl | ⟨1, _⟩ => rfl | ⟨2, _⟩ => rfl),
    broadcastInDim_apply _ _ _ (ix3 b i j) (ix3 b (0 : Fin 1) j)
      (fun a => match a with | ⟨0, _⟩ => rfl | ⟨1, _⟩ => rfl | ⟨2, _⟩ => rfl),
    transpose_ix3_021_apply]

/-- The symmetrised weight, laid over the batches. -/
theorem wsymVec_apply (W : FVec Ideal S1x2048x2048 .f32) (b : Fin 4) (i j : Fin 2048) :
    broadcastInDim S4x2048x2048 ![0, 1, 2] bcast_S1x2048x2048_S4x2048x2048_0_1_2
        (broadcastInDim S1x2048x2048 ![1, 2] bcast_S2048x2048_S1x2048x2048_1_2
          (shapeCast S2048x2048
            (mulf (addf W (transpose S1x2048x2048 [0, 2, 1] W transposes_S1x2048x2048_S1x2048x2048_0_2_1))
              (broadcastInDim S1x2048x2048 ![] bcast_S_S1x2048x2048 (constant (F := Ideal) S_ .f32 0x3F000000#32)))
            shapeCasts_S1x2048x2048_S2048x2048)) (ix3 b i j)
      = (W (ix3 (0 : Fin 1) i j) + W (ix3 (0 : Fin 1) j i)) * Cert.Crf.half := by
  rw [broadcastInDim_apply _ _ _ (ix3 b i j) (ix3 (0 : Fin 1) i j)
      (fun a => match a with | ⟨0, _⟩ => rfl | ⟨1, _⟩ => rfl | ⟨2, _⟩ => rfl),
    broadcastInDim_apply _ _ _ (ix3 (0 : Fin 1) i j) (ix2 i j)
      (fun a => match a with | ⟨0, _⟩ => rfl | ⟨1, _⟩ => rfl),
    shapeCast_1ab_ab_apply, mulf_apply, addf_apply, transpose_ix3_021_apply, bcScalar_apply, constant_apply, half_bits]

/-- THE POTENTIAL READ AT AN ENTRY. -/
theorem potVec_apply (A : FVec Ideal S4x2048x512 .f32) (W : FVec Ideal S1x2048x2048 .f32) (b : Fin 4) (i j : Fin 2048)
    (u : Fin 1) :
    potVec A W (ix4 b i j u)
      = Cert.Crf.potQuot (fun b i d => A (ix3 b i d)) (fun i j => W (ix3 (0 : Fin 1) i j)) b i j := by
  unfold potVec
  rw [broadcastInDim_apply _ _ _ (ix4 b i j u) (ix3 b i j)
      (fun a => match a with | ⟨0, _⟩ => rfl | ⟨1, _⟩ => rfl | ⟨2, _⟩ => rfl),
    mulf_apply, wsymVec_apply]
  rw [hostDivf_apply, gram_apply, normProd_apply, normVec_apply, normVec_apply]
  rfl

/-! ## The run is ten updates of the starting table, and ten updates read at an entry -/

set_option maxRecDepth 8192 in
theorem run_eq_steps (V0 : Valuation τ sig (Elt Ideal)) :
    val4 (F := Ideal) V0 (Proc.devRef .tc main_v153)
      = (stepVec (potVec (V0 (Proc.devRef .tc main_arg0)) (V0 (Proc.devRef .tc main_arg2))) (V0 (Proc.devRef .tc main_arg1)))^[10] Q0 := by
  rw [val4_main_v153]
  rfl

/-- One update of a table given by coordinates is the specification's update of it. -/
theorem stepVec_table (P : FVec Ideal S4x2048x2048x1 .f32) (l : FVec Ideal S4x2048x1 .f32) (Q : FVec Ideal S4x2048x2048x1 .f32)
    (p q : Fin 4 → Fin 2048 → Fin 2048 → EReal) (hP : ∀ b i j u, P (ix4 b i j u) = p b i j)
    (hQ : ∀ b i j u, Q (ix4 b i j u) = q b i j) (b : Fin 4) (i j : Fin 2048) (u : Fin 1) :
    stepVec P l Q (ix4 b i j u) = Cert.Crf.stepTable p (fun b j => l (ix3 b j (0 : Fin 1))) q b i j := by
  rw [stepVec_apply]
  exact congrArg (fun s => Cert.Crf.sigExp (l (ix3 b j (0 : Fin 1)) + s))
    (Finset.sum_congr rfl fun k _ => by rw [hP, hQ])

/-- Any number of updates of the starting table is the specification's, entry by entry. -/
theorem iter_table (P : FVec Ideal S4x2048x2048x1 .f32) (l : FVec Ideal S4x2048x1 .f32)
    (p : Fin 4 → Fin 2048 → Fin 2048 → EReal) (hP : ∀ b i j u, P (ix4 b i j u) = p b i j) (n : ℕ) :
    ∀ (b : Fin 4) (i j : Fin 2048) (u : Fin 1), ((stepVec P l)^[n] Q0) (ix4 b i j u)
      = ((Cert.Crf.stepTable p (fun b j => l (ix3 b j (0 : Fin 1))))^[n] (fun _ _ _ => Cert.Crf.half)) b i j := by
  induction n with
  | zero => intro b i j u; exact Q0_apply b i j u
  | succ n ih =>
    intro b i j u
    rw [Function.iterate_succ_apply', Function.iterate_succ_apply']
    exact stepVec_table P l _ p _ hP ih b i j u

/-- THE RESULT READ AT AN ENTRY: the specification's ten updates of the constant one half, with the potential the
    quotient form of the cosine times the symmetrised weight and the unary term the logits' column. -/
theorem result_apply (V0 : Valuation τ sig (Elt Ideal)) (b : Fin 4) (i j : Fin 2048) (u : Fin 1) :
    (val4 (F := Ideal) V0 (Proc.devRef .tc main_v153) : S4x2048x2048x1.Idx → EReal) (ix4 b i j u)
      = Cert.Crf.outTable
          (Cert.Crf.potQuot (fun b i d => (V0 (Proc.devRef .tc main_arg0) : S4x2048x512.Idx → EReal) (ix3 b i d))
                            (fun i j => (V0 (Proc.devRef .tc main_arg2) : S1x2048x2048.Idx → EReal) (ix3 (0 : Fin 1) i j)))
          (fun b j => (V0 (Proc.devRef .tc main_arg1) : S4x2048x1.Idx → EReal) (ix3 b j (0 : Fin 1))) b i j := by
  rw [run_eq_steps]
  exact iter_table _ _ _ (fun b i j u => potVec_apply _ _ b i j u) 10 b i j u

end Cert.ReferenceIdeal.RefValue

end
-- ==== Proof.LibRowQuant.lean ====
/-
  Row-wise quantize–dequantize, read at an index, at the ideal (extended-real) values.

  General lemmas, independent of any program:
  * a minimum / maximum reduction over the LAST axis of a rank-2 or rank-3 array — a kernel's
    `vector.multi_reduction` or a host `stablehlo.reduce` — is, at a row, the fold of `min` / `max` from the initial value
    over that row's entries (in any order: `min` and `max` commute and associate);
  * the keepdims column forms of the layout operations: a vector [a] cast to a column [a, 1], and a column [a, 1]
    broadcast over the columns of [a, b];
  * the asymmetric quantize–dequantize step `qdq`: with `scale = (vmax − vmin) / levels` and
    `zero = zlo − round (vmin / scale)`, an entry `x` goes to
    `(clamp (round (x / scale) + zero) − zero) · scale`; and the vector program computing it row by row
    (`qdqVec`) read at an entry (`qdqVec_apply`).
-/
import Idealize.ShloMosaic.PureOps.Ideal.Laws
import Idealize.ShloMosaic.Lib.ValueIdx
import Idealize.ShloMosaic.Lib.Pipeline.Value

noncomputable section

namespace Cert.RowQuant

open Idealize.ShloMosaic Idealize.ShloMosaic.ValueIdx

/-! ## The reduced index with the last coordinate put back -/

theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

theorem lift_row3 {a b d : ℕ} (h : (⟨3, ![a, b, d]⟩ : Shape).Reduces [2] (⟨2, ![a, b]⟩ : Shape)) (p : Fin a) (q : Fin b)
    (k : Fin ((⟨3, ![a, b, d]⟩ : Shape).size 2)) : h.lift (ix2 p q) k = ix3 p q (⟨k.val, k.isLt⟩ : Fin d) := by
  funext c; apply Fin.ext
  fin_cases c <;> rfl

/-! ## Minimum and maximum over the last axis, as folds over the row -/

variable {φ : FTy}

/-- A `vector.multi_reduction <minimumf>` over one axis: the fold of `min` from the accumulator's value over that
    axis's coordinates. -/
theorem multiReduction_minimumf_single {s t : Shape} {ax : Fin s.rank} (src : FVec Ideal s φ) (acc : BitVec φ.bits)
    (h : s.Reduces [ax] t) (hφ : FKind.Formats φ) (hacc : acc = FKind.minimumf.neutral φ hφ) (j : t.Idx) :
    multiReduction .minimumf [ax] t src acc h hφ hacc j
      = (Finset.univ : Finset (Fin (s.size ax))).fold min (FloatOps.ofBits φ acc) (src ∘ h.lift j) := by
  rw [multiReduction_minimumf_eq_fold]; exact h.fold_filter_drop_single _ _ src j

theorem kernel_rowMin {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  rw [multiReduction_minimumf_single]
  have hf : (src ∘ h.lift (ix1 r)) = fun k : Fin b => src (ix2 r k) := funext fun k => congrArg src (lift_row h r k)
  exact congrArg (fun f => Finset.fold min (Ideal.ofBits φ acc) f (Finset.univ : Finset (Fin b))) hf

theorem kernel_rowMax {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  have hf : (src ∘ h.lift (ix1 r)) = fun k : Fin b => src (ix2 r k) := funext fun k => congrArg src (lift_row h r k)
  exact congrArg (fun f => Finset.fold max (Ideal.ofBits φ acc) f (Finset.univ : Finset (Fin b))) hf

/-- The host's reduce with a minimum body over the columns of a matrix, at row `r`. -/
theorem host_rowMin {a b : ℕ} {u : Shape} (x : FVec Ideal ⟨2, ![a, b]⟩ φ) (init : u.Idx → Ideal φ)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduce FloatOps.minimumf x init h' hu (ix1 r)
      = (Finset.univ : Finset (Fin b)).fold min (init (Shape.Idx.first hu)) (fun k => x (ix2 r k)) := by
  rw [Host.reduce_eq_fold_single FloatOps.minimumf x _ h' h hu]
  have hf : (x ∘ h.lift (ix1 r)) = fun k : Fin b => x (ix2 r k) := funext fun k => congrArg x (lift_row h r k)
  exact congrArg (fun f => Finset.fold min (init (Shape.Idx.first hu)) f (Finset.univ : Finset (Fin b))) hf

theorem host_rowMax {a b : ℕ} {u : Shape} (x : FVec Ideal ⟨2, ![a, b]⟩ φ) (init : u.Idx → Ideal φ)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x _ h' h hu]
  have hf : (x ∘ h.lift (ix1 r)) = fun k : Fin b => x (ix2 r k) := funext fun k => congrArg x (lift_row h r k)
  exact congrArg (fun f => Finset.fold max (init (Shape.Idx.first hu)) f (Finset.univ : Finset (Fin b))) hf

/-- The same over the last axis of a rank-3 array, at `(p, q)`. -/
theorem host_rowMin3 {a b d : ℕ} {u : Shape} (x : FVec Ideal ⟨3, ![a, b, d]⟩ φ) (init : u.Idx → Ideal φ)
    (h' : (⟨3, ![a, b, d]⟩ : Shape).ReducesTo [2] (⟨2, ![a, b]⟩ : Shape))
    (h : (⟨3, ![a, b, d]⟩ : Shape).Reduces [2] (⟨2, ![a, b]⟩ : Shape)) (hu : 0 < u.numel) (p : Fin a) (q : Fin b) :
    Host.reduce FloatOps.minimumf x init h' hu (ix2 p q)
      = (Finset.univ : Finset (Fin d)).fold min (init (Shape.Idx.first hu)) (fun k => x (ix3 p q k)) := by
  rw [Host.reduce_eq_fold_single FloatOps.minimumf x _ h' h hu]
  have hf : (x ∘ h.lift (ix2 p q)) = fun k : Fin d => x (ix3 p q k) := funext fun k => congrArg x (lift_row3 h p q k)
  exact congrArg (fun f => Finset.fold min (init (Shape.Idx.first hu)) f (Finset.univ : Finset (Fin d))) hf

theorem host_rowMax3 {a b d : ℕ} {u : Shape} (x : FVec Ideal ⟨3, ![a, b, d]⟩ φ) (init : u.Idx → Ideal φ)
    (h' : (⟨3, ![a, b, d]⟩ : Shape).ReducesTo [2] (⟨2, ![a, b]⟩ : Shape))
    (h : (⟨3, ![a, b, d]⟩ : Shape).Reduces [2] (⟨2, ![a, b]⟩ : Shape)) (hu : 0 < u.numel) (p : Fin a) (q : Fin b) :
    Host.reduce FloatOps.maximumf x init h' hu (ix2 p q)
      = (Finset.univ : Finset (Fin d)).fold max (init (Shape.Idx.first hu)) (fun k => x (ix3 p q k)) := by
  rw [Host.reduce_eq_fold_single FloatOps.maximumf x _ h' h hu]
  have hf : (x ∘ h.lift (ix2 p q)) = fun k : Fin d => x (ix3 p q k) := funext fun k => congrArg x (lift_row3 h p q k)
  exact congrArg (fun f => Finset.fold max (init (Shape.Idx.first hu)) f (Finset.univ : Finset (Fin d))) hf

/-! ## The keepdims column forms -/

variable {α : Type}

/-- An `[a]` vector cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The quantize–dequantize step -/

/-- One entry `x` of a row whose least and greatest entries are `vmin` and `vmax`, quantized to the integer grid of step
    `scale = (vmax − vmin) / lvl` shifted by `zero = zlo − round (vmin / scale)`, clamped to `[clo, chi]`, and mapped back. -/
def qdq (lvl zlo clo chi vmin vmax x : EReal) : EReal :=
  (min chi (max clo (Ideal.liftRound Ideal.roundHalfEven (Ideal.div x (Ideal.div (vmax - vmin) lvl))
        + (zlo - Ideal.liftRound Ideal.roundHalfEven (Ideal.div vmin (Ideal.div (vmax - vmin) lvl)))))
      - (zlo - Ideal.liftRound Ideal.roundHalfEven (Ideal.div vmin (Ideal.div (vmax - vmin) lvl))))
    * Ideal.div (vmax - vmin) lvl

/-- The vector program: the rows' minima `A` and maxima `B` as columns, the scale and the zero point as columns, both
    broadcast over the row, the entries quantized, clamped and mapped back. -/
def qdqVec {a b : ℕ} (hsc : (⟨1, ![a]⟩ : Shape).ShapeCasts ⟨2, ![a, 1]⟩) (hbc : (⟨2, ![a, 1]⟩ : Shape).Broadcasts ⟨2, ![a, b]⟩)
    (lvl zlo clo chi : Ideal .f32) (A B : FVec Ideal ⟨1, ![a]⟩ .f32) (x : FVec Ideal ⟨2, ![a, b]⟩ .f32) :
    FVec Ideal ⟨2, ![a, b]⟩ .f32 :=
  have v2 : FVec Ideal ⟨2, ![a, 1]⟩ .f32 := shapeCast ⟨2, ![a, 1]⟩ A hsc
  have v4 : FVec Ideal ⟨2, ![a, 1]⟩ .f32 := shapeCast ⟨2, ![a, 1]⟩ B hsc
  have v7 : FVec Ideal ⟨2, ![a, 1]⟩ .f32 := divf (subf v4 v2) (broadcast ⟨2, ![a, 1]⟩ lvl)
  have v11 : FVec Ideal ⟨2, ![a, 1]⟩ .f32 := subf (broadcast ⟨2, ![a, 1]⟩ zlo) (roundeven (divf v2 v7))
  have v12 : FVec Ideal ⟨2, ![a, b]⟩ .f32 := broadcastTo ⟨2, ![a, b]⟩ v7 hbc
  have v15 : FVec Ideal ⟨2, ![a, b]⟩ .f32 := broadcastTo ⟨2, ![a, b]⟩ v11 hbc
  mulf (subf (minimumf (broadcast ⟨2, ![a, b]⟩ chi) (maximumf (broadcast ⟨2, ![a, b]⟩ clo) (addf (roundeven (divf x v12)) v15))) v15) v12

theorem qdqVec_apply {a b : ℕ} (hsc : (⟨1, ![a]⟩ : Shape).ShapeCasts ⟨2, ![a, 1]⟩) (hbc : (⟨2, ![a, 1]⟩ : Shape).Broadcasts ⟨2, ![a, b]⟩)
    (lvl zlo clo chi : Ideal .f32) (A B : FVec Ideal ⟨1, ![a]⟩ .f32) (x : FVec Ideal ⟨2, ![a, b]⟩ .f32) (r : Fin a) (q : Fin b) :
    qdqVec hsc hbc lvl zlo clo chi A B x (ix2 r q) = qdq lvl zlo clo chi (A (ix1 r)) (B (ix1 r)) (x (ix2 r q)) := by
  unfold qdqVec
  show (min chi (max clo (Ideal.liftRound Ideal.roundHalfEven (Ideal.div (x (ix2 r q)) (broadcastTo ⟨2, ![a, b]⟩ _ hbc (ix2 r q)))
        + broadcastTo ⟨2, ![a, b]⟩ _ hbc (ix2 r q))) - broadcastTo ⟨2, ![a, b]⟩ _ hbc (ix2 r q)) * broadcastTo ⟨2, ![a, b]⟩ _ hbc (ix2 r q) = _
  rw [broadcastTo_a1_ab_apply, broadcastTo_a1_ab_apply]
  show (min chi (max clo (Ideal.liftRound Ideal.roundHalfEven (Ideal.div (x (ix2 r q))
          (Ideal.div (shapeCast ⟨2, ![a, 1]⟩ B hsc (ix2 r (0 : Fin 1)) - shapeCast ⟨2, ![a, 1]⟩ A hsc (ix2 r (0 : Fin 1))) lvl))
        + (zlo - Ideal.liftRound Ideal.roundHalfEven (Ideal.div (shapeCast ⟨2, ![a, 1]⟩ A hsc (ix2 r (0 : Fin 1)))
            (Ideal.div (shapeCast ⟨2, ![a, 1]⟩ B hsc (ix2 r (0 : Fin 1)) - shapeCast ⟨2, ![a, 1]⟩ A hsc (ix2 r (0 : Fin 1))) lvl)))))
      - (zlo - Ideal.liftRound Ideal.roundHalfEven (Ideal.div (shapeCast ⟨2, ![a, 1]⟩ A hsc (ix2 r (0 : Fin 1)))
            (Ideal.div (shapeCast ⟨2, ![a, 1]⟩ B hsc (ix2 r (0 : Fin 1)) - shapeCast ⟨2, ![a, 1]⟩ A hsc (ix2 r (0 : Fin 1))) lvl))))
      * Ideal.div (shapeCast ⟨2, ![a, 1]⟩ B hsc (ix2 r (0 : Fin 1)) - shapeCast ⟨2, ![a, 1]⟩ A hsc (ix2 r (0 : Fin 1))) lvl = _
  rw [shapeCast_a_a1_apply, shapeCast_a_a1_apply]
  rfl

/-- The same step spelt with the host's operations (the host's quotient and rounding are the kernel's at the ideal values). -/
theorem qdq_host (lvl zlo clo chi A B X : Ideal .f32) :
    FloatOps.mulf
        (FloatOps.subf
          (FloatOps.minimumf chi (FloatOps.maximumf clo
            (FloatOps.addf (FloatOps.hostUnary .roundeven (FloatOps.hostDivf X (FloatOps.hostDivf (FloatOps.subf B A) lvl)))
              (FloatOps.subf zlo (FloatOps.hostUnary .roundeven (FloatOps.hostDivf A (FloatOps.hostDivf (FloatOps.subf B A) lvl)))))))
          (FloatOps.subf zlo (FloatOps.hostUnary .roundeven (FloatOps.hostDivf A (FloatOps.hostDivf (FloatOps.subf B A) lvl)))))
        (FloatOps.hostDivf (FloatOps.subf B A) lvl)
      = qdq lvl zlo clo chi A B X := rfl

end Cert.RowQuant

end
-- ==== Proof.KerStep.lean ====
/-
  One grid point of the kernel, as arithmetic on its loaded blocks.

  At a grid point the body holds a block `P` of the pairwise potential (128 rows by all 2048 columns), the unary
  row `l` (one row of 2048), and a column `S` of 128 row sums.  From `S` it forms the table
  `σ (l j + S r) = 1/2 + 1/2 · tanh ((l j + S r) / 2)` (`sigV`), multiplies it into `P` and sums each row (`stepV`);
  it starts from half of `P`'s row sums (`startV`), repeats the step nine times and stores the table of the last column
  of sums.  The printed body is that, unrolled (`payload_fold`, by unfolding); read at a row `r` and a column `j` it is
  the specification's `outRow` of the block (`sigV_apply`, `stepV_apply`, `startV_apply`, `iter_apply`).
-/
import proofs.«112759_j2671469658740_2_alg».proof.Proof.Gen.KernelIdeal.Skeleton
import proofs.«112759_j2671469658740_2_alg».proof.Proof.CrfSpec
import proofs.«112759_j2671469658740_2_alg».proof.Proof.LibRowQuant
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KerValue

open Cert.KernelIdeal Cert.KernelIdeal.Gen Idealize.ShloMosaic Idealize.ShloMosaic.ValueIdx Cert.Crf Cert.RowQuant

/-- The word `0x3F000000` is one half. -/
theorem ofBits_half : Ideal.ofBits .f32 0x3F000000#32 = half := by
  unfold half
  simp [Ideal.ofBits, Ideal.ieee]
  rw [← EReal.coe_mul]
  exact congrArg _ (by norm_num)

/-- The splat one half, as the body writes it. -/
abbrev hv : Ideal .f32 := Scalar.ofBits (F := Ideal) .f32 0x3F000000#32

theorem hv_eq : hv = half := ofBits_half

/-- The table `σ (l j + S r)` from the unary row and a column of row sums. -/
def sigV (l : FVec Ideal S1x2048 .f32) (S : FVec Ideal S128x1 .f32) : FVec Ideal S128x2048 .f32 :=
  addf (broadcast S128x2048 hv) (mulf (broadcast S128x2048 hv) (tanh (mulf (broadcast S128x2048 hv)
    (addf (broadcastTo S128x2048 l broadcasts_S1x2048_S128x2048) (broadcastTo S128x2048 S broadcasts_S128x1_S128x2048)))))

/-- The column of a block's row sums. -/
def colSum (v : FVec Ideal S128x2048 .f32) : FVec Ideal S128x1 .f32 :=
  shapeCast S128x1 (multiReduction .add [1] S128 v 0x00000000#32 reduces_S128x2048_S128 (.inl rfl) rfl) shapeCasts_S128_S128x1

/-- The first column: half of the potential's row sums. -/
def startV (P : FVec Ideal S128x2048 .f32) : FVec Ideal S128x1 .f32 := mulf (broadcast S128x1 hv) (colSum P)

/-- One update of the column. -/
def stepV (l : FVec Ideal S1x2048 .f32) (P : FVec Ideal S128x2048 .f32) (S : FVec Ideal S128x1 .f32) : FVec Ideal S128x1 .f32 :=
  colSum (mulf P (sigV l S))

/-- What the body stores, from the potential's block and the unary row. -/
def bodyOut (l : FVec Ideal S1x2048 .f32) (P : FVec Ideal S128x2048 .f32) : FVec Ideal S1x128x2048 .f32 :=
  shapeCast S1x128x2048 (sigV l ((stepV l P)^[9] (startV P))) shapeCasts_S128x2048_S1x128x2048

/-- The printed body's stored value is `bodyOut` of its potential block and unary row: the nine updates unrolled. -/
theorem payload_fold (x0 : Vec Ideal S1x128x512 .bf16) (x1 : Vec Ideal S1x512x2048 .bf16) (v7 : Vec Ideal S128x2048 .f32)
    (x3 : Vec Ideal S1x1x2048 .f32) :
    k0_pay1 (k0_pay2 x3) (k0_pay3 x0 x1 v7) (k0_pay6 (k0_pay2 x3))
        (k0_pay7 (k0_pay2 x3) (k0_pay3 x0 x1 v7) (k0_pay5 (k0_pay2 x3) (k0_pay3 x0 x1 v7) (k0_pay4 x0 x1 v7 x3) hv))
      = bodyOut (k0_pay2 x3) (k0_pay3 x0 x1 v7) := rfl

/-! ## Read at a row and a column -/

theorem sigV_apply (l : FVec Ideal S1x2048 .f32) (S : FVec Ideal S128x1 .f32) (r : Fin 128) (j : Fin 2048) :
    sigV l S (ix2 r j) = sigTanh (l (ix2 (0 : Fin 1) j) + S (ix2 r (0 : Fin 1))) := by
  unfold sigV sigTanh
  show hv + hv * Ideal.tanh (hv * (broadcastTo S128x2048 l broadcasts_S1x2048_S128x2048 (ix2 r j)
    + broadcastTo S128x2048 S broadcasts_S128x1_S128x2048 (ix2 r j))) = _
  rw [broadcastTo_1b_ab_apply, broadcastTo_a1_ab_apply, hv_eq]

theorem colSum_apply (v : FVec Ideal S128x2048 .f32) (r : Fin 128) (u : Fin 1) :
    colSum v (ix2 r u) = ∑ k : Fin 2048, v (ix2 r k) := by
  unfold colSum
  rw [shapeCast_a_a1_apply]
  refine (Ideal.multiReduction_add_single v 0x00000000#32 reduces_S128x2048_S128 (.inl rfl) rfl (ix1 r)).trans ?_
  exact Finset.sum_congr rfl fun k _ => by rw [lift_row]; rfl

theorem startV_apply (P : FVec Ideal S128x2048 .f32) (r : Fin 128) (u : Fin 1) :
    startV P (ix2 r u) = rowStart (fun (_ : Unit) (r : Fin 128) (k : Fin 2048) => P (ix2 r k)) () r := by
  unfold startV rowStart
  rw [mulf_apply, broadcast_apply, colSum_apply, hv_eq]

theorem stepV_apply (l : FVec Ideal S1x2048 .f32) (P : FVec Ideal S128x2048 .f32) (S : FVec Ideal S128x1 .f32)
    (s : Unit → Fin 128 → EReal) (hS : ∀ r u, S (ix2 r u) = s () r) (r : Fin 128) (u : Fin 1) :
    stepV l P S (ix2 r u)
      = stepRow (fun (_ : Unit) (r : Fin 128) (k : Fin 2048) => P (ix2 r k)) (fun _ k => l (ix2 (0 : Fin 1) k)) s () r := by
  unfold stepV stepRow
  rw [colSum_apply]
  exact Finset.sum_congr rfl fun k _ => by rw [mulf_apply, sigV_apply, hS]

theorem iter_apply (l : FVec Ideal S1x2048 .f32) (P : FVec Ideal S128x2048 .f32) (n : ℕ) (r : Fin 128) (u : Fin 1) :
    (stepV l P)^[n] (startV P) (ix2 r u)
      = (stepRow (fun (_ : Unit) (r : Fin 128) (k : Fin 2048) => P (ix2 r k)) (fun _ k => l (ix2 (0 : Fin 1) k)))^[n]
          (rowStart fun (_ : Unit) (r : Fin 128) (k : Fin 2048) => P (ix2 r k)) () r := by
  induction n generalizing r u with
  | zero => exact startV_apply P r u
  | succ n ih =>
    rw [Function.iterate_succ_apply', Function.iterate_succ_apply']
    exact stepV_apply l P _ _ (fun r u => ih r u) r u

/-- The stored block at row `r` and column `j` is the specification's update of the block's rows. -/
theorem bodyOut_apply (l : FVec Ideal S1x2048 .f32) (P : FVec Ideal S128x2048 .f32) (z : Fin 1) (r : Fin 128) (j : Fin 2048) :
    bodyOut l P (ix3 z r j)
      = outRow (fun (_ : Unit) (r : Fin 128) (k : Fin 2048) => P (ix2 r k)) (fun _ k => l (ix2 (0 : Fin 1) k)) () r j := by
  unfold bodyOut outRow
  rw [shapeCast_ab_1ab_apply, sigV_apply, iter_apply]

end Cert.KernelIdeal.KerValue

end
-- ==== Proof.KerPiece.lean ====
/-
  What one grid point leaves in the output's staging buffer, as the specification's update of a block of rows.

  The body's one covering store writes `bodyOut` of the unary row it loaded and of the potential block it formed: the
  product of the loaded feature block (128 rows) with the loaded transposed features (all 2048 columns), times the 128
  rows of the resident weight matrix that start at row `128 · i₁` (`out_A`).  Read at a row `r` and a column `j` the
  potential block is `(∑ d, x₀ r d · x₁ d j) · w (128 i₁ + r) j` (`pay3_apply`), so the stored block is `outRow` of that
  potential and the loaded unary row (`out_A_apply`).
-/
import proofs.«112759_j2671469658740_2_alg».proof.Proof.Gen.KernelIdeal.Frame
import proofs.«112759_j2671469658740_2_alg».proof.Proof.KerStep
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KerValue

open Cert.KernelIdeal Cert.KernelIdeal.Gen Idealize.ShloMosaic.ValueIdx Cert.Crf Cert.RowQuant

theorem hz3 : (![0, 0, 0] : Fin 3 → Nat) = fun _ => 0 := funext fun a => by fin_cases a <;> rfl

/-- The 128 rows of the resident weight matrix that grid point `i` reads. -/
abbrev wRows (i : grid0.Coords) (x2 : Vec Ideal S2048x2048 .f32) : Vec Ideal S128x2048 .f32 :=
  View.ld x2 (Rect.unit (s := S2048x2048) (k0_off1 i) S128x2048.size (k0_off1_inb i))

/-- The body's one store, through the whole staging buffer, leaves `bodyOut` of the loaded unary row and of the
    potential block formed from the loaded blocks. -/
theorem out_A (c : Dev nD) (i : grid0.Coords) (arg2 : Memref sig .tc .vmem S1x128x512 .bf16) (harg2 : arg2.IsWhole) (arg3 : Memref sig .tc .vmem S1x512x2048 .bf16) (harg3 : arg3.IsWhole) (arg4 : Memref sig .tc .vmem S2048x2048 .f32) (harg4 : arg4.IsWhole) (arg5 : Memref sig .tc .vmem S1x1x2048 .f32) (harg5 : arg5.IsWhole) (arg6 : Memref sig .tc .vmem S1x128x2048 .f32) (harg6 : arg6.IsWhole)
    (x0 : Vec Ideal S1x128x512 .bf16) (x1 : Vec Ideal S1x512x2048 .bf16) (x2 : Vec Ideal S2048x2048 .f32) (x3 : Vec Ideal S1x1x2048 .f32) :
    out0_A_4 (F := Ideal) c i arg2 harg2 arg3 harg3 arg4 harg4 arg5 harg5 arg6 harg6 x0 x1 x2 x3 = bodyOut (k0_pay2 x3) (k0_pay3 x0 x1 (wRows i x2)) := by
  unfold out0_A_4
  rw [View.read_writes_eq_canon _ _ _ (cover0_A_4 c i arg2 harg2 arg3 harg3 arg4 harg4 arg5 harg5 arg6 harg6 x0 x1 x2 x3)]
  unfold kernelRun0_A
  dsimp only
  sl_unfold_words
  rw [View.canon_unit_zero hz3]
  simp only [View.readAt_eq_ld, harg2.read_unread, harg3.read_unread, harg4.read_unread, harg5.read_unread,
    View.ld_unit_zero (S := S1x128x512) hz3, View.ld_unit_zero (S := S1x512x2048) hz3, View.ld_unit_zero (S := S1x1x2048) hz3]
  exact payload_fold x0 x1 _ x3

/-- Row `r`, column `k` of the rows point `i` reads is row `128 · i₁ + r` of the weight matrix. -/
theorem wRows_apply (i : grid0.Coords) (x2 : Vec Ideal S2048x2048 .f32) (r : Fin 128) (k : Fin 2048) :
    wRows i x2 (ix2 r k) = x2 (ix2 (⟨128 * (i 1).val + r.val, by have := (i 1).isLt; have : (i 1).val < 16 := this; have := r.isLt; omega⟩ : Fin 2048) k) := by
  show x2 _ = x2 _
  refine congrArg x2 (funext fun a => Fin.ext ?_)
  match a with
  | ⟨0, _⟩ =>
    show (k0_off1 i) 0 + 1 * r.val = 128 * (i 1).val + r.val
    rw [k0_off1_eq i]; show 128 * (i 1).val + 1 * r.val = _; omega
  | ⟨1, _⟩ =>
    show (k0_off1 i) 1 + 1 * k.val = k.val
    rw [k0_off1_eq i]; show 0 + 1 * k.val = _; omega

/-- The unary row as loaded. -/
theorem pay2_apply (x3 : Vec Ideal S1x1x2048 .f32) (z : Fin 1) (k : Fin 2048) :
    k0_pay2 x3 (ix2 z k) = x3 (ix3 (0 : Fin 1) z k) := by
  unfold k0_pay2
  exact shapeCast_1ab_ab_apply x3 _ z k

/-- The matrix product of a 128 × 512 block with a 512 × 2048 block into a zero accumulator, at a row and a column. -/
theorem matmul_blk (A : FVec Ideal S128x512 .bf16) (Bm : FVec Ideal S512x2048 .bf16) (r : Fin 128) (k : Fin 2048) :
    matmul dot_S128x512_S512x2048_S128x2048_1_0_0_1_n_n none A Bm (constant S128x2048 .f32 0x00000000#32) (ix2 r k)
      = ∑ d : Fin 512, A (ix2 r d) * Bm (ix2 d k) := by
  refine (Ideal.matmul_constant_zero_apply dot_S128x512_S512x2048_S128x2048_1_0_0_1_n_n none A Bm (ix2 r k)).trans ?_
  rw [← Equiv.sum_comp (contrEquiv1 dot_S128x512_S512x2048_S128x2048_1_0_0_1_n_n 512 rfl rfl).symm]
  refine Finset.sum_congr rfl fun d _ => ?_
  congr 1
  · refine congrArg A (funext fun a => Fin.ext ?_)
    match a with
    | ⟨0, _⟩ => rfl
    | ⟨1, _⟩ =>
      exact (DotDims.lhsIdx_val_of_single dot_S128x512_S512x2048_S128x2048_1_0_0_1_n_n (cl := (1 : Fin 2)) rfl _ _).trans
        (contrEquiv1_symm_val dot_S128x512_S512x2048_S128x2048_1_0_0_1_n_n 512 rfl rfl d)
  · refine congrArg Bm (funext fun a => Fin.ext ?_)
    match a with
    | ⟨0, _⟩ =>
      exact (DotDims.rhsIdx_val_of_single dot_S128x512_S512x2048_S128x2048_1_0_0_1_n_n (cr := (0 : Fin 2)) rfl _ _).trans
        (contrEquiv1_symm_val dot_S128x512_S512x2048_S128x2048_1_0_0_1_n_n 512 rfl rfl d)
    | ⟨1, _⟩ => rfl

/-- The potential block at a row and a column. -/
theorem pay3_apply (x0 : Vec Ideal S1x128x512 .bf16) (x1 : Vec Ideal S1x512x2048 .bf16) (v7 : Vec Ideal S128x2048 .f32)
    (r : Fin 128) (k : Fin 2048) :
    k0_pay3 x0 x1 v7 (ix2 r k) = (∑ d : Fin 512, x0 (ix3 (0 : Fin 1) r d) * x1 (ix3 (0 : Fin 1) d k)) * v7 (ix2 r k) := by
  unfold k0_pay3
  rw [mulf_apply, matmul_blk, shapeCast_self]
  congr 1
  exact Finset.sum_congr rfl fun d _ => by rw [shapeCast_1ab_ab_apply, shapeCast_1ab_ab_apply]

/-- The block one grid point leaves, at row `r` and column `j`: the specification's update of its 128 rows. -/
theorem out_A_apply (c : Dev nD) (i : grid0.Coords) (arg2 : Memref sig .tc .vmem S1x128x512 .bf16) (harg2 : arg2.IsWhole) (arg3 : Memref sig .tc .vmem S1x512x2048 .bf16) (harg3 : arg3.IsWhole) (arg4 : Memref sig .tc .vmem S2048x2048 .f32) (harg4 : arg4.IsWhole) (arg5 : Memref sig .tc .vmem S1x1x2048 .f32) (harg5 : arg5.IsWhole) (arg6 : Memref sig .tc .vmem S1x128x2048 .f32) (harg6 : arg6.IsWhole)
    (x0 : Vec Ideal S1x128x512 .bf16) (x1 : Vec Ideal S1x512x2048 .bf16) (x2 : Vec Ideal S2048x2048 .f32) (x3 : Vec Ideal S1x1x2048 .f32) (z : Fin 1) (r : Fin 128) (j : Fin 2048) :
    out0_A_4 (F := Ideal) c i arg2 harg2 arg3 harg3 arg4 harg4 arg5 harg5 arg6 harg6 x0 x1 x2 x3 (ix3 z r j)
      = outRow (fun (_ : Unit) (r : Fin 128) (k : Fin 2048) =>
            (∑ d : Fin 512, x0 (ix3 (0 : Fin 1) r d) * x1 (ix3 (0 : Fin 1) d k)) * wRows i x2 (ix2 r k))
          (fun _ k => x3 (ix3 (0 : Fin 1) (0 : Fin 1) k)) () r j := by
  rw [out_A, bodyOut_apply]
  simp only [pay3_apply, pay2_apply]

end Cert.KernelIdeal.KerValue

end
-- ==== Proof.KerArgs.lean ====
/-
  The kernel's three argument arrays, as the region finds them, read by coordinates: the features `f b i d`, the unary
  term `l b j` and the weights `w i j`.
-/
import proofs.«112759_j2671469658740_2_alg».proof.Proof.Gen.KernelIdeal.Frame
import proofs.«112759_j2671469658740_2_alg».proof.Proof.CrfSpec
import Idealize.ShloMosaic.Lib.ValueIdx

noncomputable section

namespace Cert.KernelIdeal.KerValue

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The features of batch `b`, row `i`, coordinate `d`. -/
def fOf (c : Dev nD) (b : Fin 4) (i : Fin 2048) (d : Fin 512) : EReal :=
  (m ((c : Thread nD τ).loc main_arg0) : S4x2048x512.Idx → EReal) (ix3 b i d)

/-- The unary term of batch `b` at row `j`. -/
def lOf (c : Dev nD) (b : Fin 4) (j : Fin 2048) : EReal :=
  (m ((c : Thread nD τ).loc main_arg1) : S4x2048x1.Idx → EReal) (ix3 b j (0 : Fin 1))

/-- The weight between rows `i` and `j`. -/
def wOf (c : Dev nD) (i j : Fin 2048) : EReal :=
  (m ((c : Thread nD τ).loc main_arg2) : S1x2048x2048.Idx → EReal) (ix3 (0 : Fin 1) i j)

end Cert.KernelIdeal.KerValue

end
-- ==== Proof.KerHost.lean ====
/-
  The arrays the kernel region finds, read at an index.

  Before the region the host computes, from the three arguments: the symmetrised weights, one half of the sum of the
  weight matrix and its transpose; the features divided, entry by entry, by the norm of their row, the norm being the
  square root of the sum along the last axis of the squares; the same array with its last two axes exchanged; and
  the unary term with its last two axes exchanged.  Each operation is elementwise, a layout change, or a sum along
  one axis, so each array at an index is an expression in the arguments' entries.
-/
import proofs.«112759_j2671469658740_2_alg».proof.Proof.KerArgs
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.KernelIdeal.KerValue

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-! ### The constants -/

/-- The pattern of one half denotes one half. -/
theorem ofBits_half_f32 : Ideal.ofBits .f32 0x3F000000#32 = Cert.Crf.half := by
  unfold Cert.Crf.half
  simp [Ideal.ofBits, Ideal.ieee]
  rw [← EReal.coe_mul]
  exact congrArg _ (by norm_num)

/-! ### The unary term -/

/-- The unary term as the region finds it: the argument with its last two axes exchanged. -/
theorem V_v13 (c : Dev nD) :
    (V m c main_v13 : S4x1x2048.Idx → EReal)
      = transpose S4x1x2048 [0, 2, 1] (m ((c : Thread nD τ).loc main_arg1) : S4x2048x1.Idx → EReal)
          Facts₀.transposes_S4x2048x1_S4x1x2048_0_2_1 := by
  show StableHlo.after hostOps0 (fun b => m (c, b)) (Proc.devRef .tc main_v13) = _
  after_results

/-- The unary term the region finds at (b, 0, k) is the argument's at row k of batch b. -/
theorem V_v13_apply (c : Dev nD) (b : Fin 4) (z : Fin 1) (k : Fin 2048) :
    (V m c main_v13 : S4x1x2048.Idx → EReal) (ix3 b z k) = lOf m c b k := by
  rw [V_v13, transpose_ix3_021_apply]
  unfold lOf
  have hz : z = 0 := Subsingleton.elim _ _
  rw [hz]

/-! ### The symmetrised weights -/

/-- The host's symmetrisation of the weights: the sum of the matrix and its transpose, times one half, with the leading
    unit axis dropped. -/
def hostWsym (A : FVec Ideal S1x2048x2048 .f32) : FVec Ideal S2048x2048 .f32 :=
  shapeCast S2048x2048
    (mulf (addf A (transpose S1x2048x2048 [0, 2, 1] A Facts₀.transposes_S1x2048x2048_S1x2048x2048_0_2_1))
      (broadcastInDim S1x2048x2048 ![] Facts₀.bcast_S_S1x2048x2048 (constant (F := Ideal) S_ .f32 0x3F000000#32)))
    Facts₀.shapeCasts_S1x2048x2048_S2048x2048

/-- The symmetrised weights at (i, j): one half of the sum of the entries (i, j) and (j, i). -/
theorem hostWsym_apply (A : FVec Ideal S1x2048x2048 .f32) (i j : Fin 2048) :
    hostWsym A (ix2 i j) = (A (ix3 (0 : Fin 1) i j) + A (ix3 (0 : Fin 1) j i)) * Cert.Crf.half := by
  unfold hostWsym
  rw [shapeCast_1ab_ab_apply, mulf_apply, addf_apply, transpose_ix3_021_apply, broadcastInDim_scalar_apply, constant_apply,
    ofBits_half_f32]

/-- The weights as the region finds them. -/
theorem V_v4 (c : Dev nD) :
    (V m c main_v4 : S2048x2048.Idx → EReal) = hostWsym (m ((c : Thread nD τ).loc main_arg2) : FVec Ideal S1x2048x2048 .f32) := by
  show StableHlo.after hostOps0 (fun b => m (c, b)) (Proc.devRef .tc main_v4) = _
  after_results
  rfl

/-- The weight the region finds at (i, j) is the symmetrised weight of the argument. -/
theorem V_v4_apply (c : Dev nD) (i j : Fin 2048) :
    (V m c main_v4 : S2048x2048.Idx → EReal) (ix2 i j) = Cert.Crf.wsym (wOf m c) i j := by
  rw [V_v4, hostWsym_apply]
  rfl

/-! ### The features divided by their rows' norms -/

/-- The index (b, i) with the coordinate k put back on the last axis is (b, i, k). -/
theorem lift_last (h : S4x2048x512.Reduces [2] S4x2048) (p : Fin 4) (q : Fin 2048) (k : Fin (S4x2048x512.size 2)) :
    h.lift (ix2 p q) k = ix3 p q (⟨k.val, k.isLt⟩ : Fin 512) := by
  funext a; apply Fin.ext
  fin_cases a <;> rfl

/-- The sum of the squares along the last axis, from zero, at row (b, i). -/
theorem sumSq_apply (A : FVec Ideal S4x2048x512 .f32) (b : Fin 4) (i : Fin 2048) :
    Host.reduceAdd (mulf A A) (constant (F := Ideal) S_ .f32 0x00000000#32) Facts₀.reducesTo_S4x2048x512_S4x2048_d2 Facts₀.h_S_
        (ix2 b i)
      = ∑ d : Fin 512, A (ix3 b i d) * A (ix3 b i d) := by
  have hR : S4x2048x512.Reduces [2] S4x2048 := by decide
  rw [hostReduceAdd_apply, Ideal.hostReduceAdd_single _ hR]
  show Ideal.ofBits .f32 0x00000000#32 + _ = _
  rw [Ideal.ofBits_zero_f32, zero_add]
  exact Finset.sum_congr rfl fun k _ => by rw [lift_last]; rfl

/-- A table over (b, i) written as a column reads, at (b, i, 0), the table at (b, i). -/
theorem bcast_col_apply {α : Type} (x : S4x2048.Idx → α) (b : Fin 4) (i : Fin 2048) (z : Fin 1) :
    broadcastInDim S4x2048x1 ![0, 1] Facts₀.bcast_S4x2048_S4x2048x1_0_1 x (ix3 b i z) = x (ix2 b i) :=
  broadcastInDim_apply _ _ x _ _ fun a => match a with | ⟨0, _⟩ => rfl | ⟨1, _⟩ => rfl

/-- A column over (b, i) repeated along the last axis reads, at (b, i, d), the column at (b, i, 0). -/
theorem bcast_row_apply {α : Type} (x : S4x2048x1.Idx → α) (b : Fin 4) (i : Fin 2048) (d : Fin 512) :
    broadcastInDim S4x2048x512 ![0, 1, 2] Facts₀.bcast_S4x2048x1_S4x2048x512_0_1_2 x (ix3 b i d) = x (ix3 b i (0 : Fin 1)) :=
  broadcastInDim_apply _ _ x _ _ fun a => match a with | ⟨0, _⟩ => rfl | ⟨1, _⟩ => rfl | ⟨2, _⟩ => rfl

/-- The host's normalisation of the features: every entry divided by the square root of its row's sum of squares. -/
def hostNormed (A : FVec Ideal S4x2048x512 .f32) : FVec Ideal S4x2048x512 .bf16 :=
  truncf .bf16
    (Host.divf A
      (broadcastInDim S4x2048x512 ![0, 1, 2] Facts₀.bcast_S4x2048x1_S4x2048x512_0_1_2
        (Host.sqrt
          (broadcastInDim S4x2048x1 ![0, 1] Facts₀.bcast_S4x2048_S4x2048x1_0_1
            (Host.reduceAdd (mulf A A) (constant (F := Ideal) S_ .f32 0x00000000#32) Facts₀.reducesTo_S4x2048x512_S4x2048_d2
              Facts₀.h_S_)))))
    Facts₀.bitsLt_bf16_f32

/-- The normalised features at (b, i, d): the entry over the square root of the row's sum of squares. -/
theorem hostNormed_apply (A : FVec Ideal S4x2048x512 .f32) (b : Fin 4) (i : Fin 2048) (d : Fin 512) :
    hostNormed A (ix3 b i d) = Ideal.div (A (ix3 b i d)) (Ideal.sqrt (∑ e : Fin 512, A (ix3 b i e) * A (ix3 b i e))) := by
  unfold hostNormed
  rw [truncf_apply, hostDivf_apply, bcast_row_apply]
  show Ideal.div (A (ix3 b i d))
      (Ideal.sqrt (broadcastInDim (s := S4x2048) S4x2048x1 ![0, 1] _ _ (ix3 b i (0 : Fin 1)))) = _
  rw [bcast_col_apply, sumSq_apply]

/-- The first operand of the region: the normalised features. -/
theorem V_v11 (c : Dev nD) :
    (V m c main_v11 : S4x2048x512.Idx → EReal)
      = hostNormed (m ((c : Thread nD τ).loc main_arg0) : FVec Ideal S4x2048x512 .f32) := by
  show StableHlo.after hostOps0 (fun b => m (c, b)) (Proc.devRef .tc main_v11) = _
  after_results
  rfl

/-- The second operand of the region: the normalised features with their last two axes exchanged. -/
theorem V_v12 (c : Dev nD) :
    (V m c main_v12 : S4x512x2048.Idx → EReal)
      = transpose S4x512x2048 [0, 2, 1] (hostNormed (m ((c : Thread nD τ).loc main_arg0) : FVec Ideal S4x2048x512 .f32))
          Facts₀.transposes_S4x2048x512_S4x512x2048_0_2_1 := by
  show StableHlo.after hostOps0 (fun b => m (c, b)) (Proc.devRef .tc main_v12) = _
  after_results
  rfl

/-- The first operand at (b, i, d): the feature over the norm of its row. -/
theorem V_v11_apply (c : Dev nD) (b : Fin 4) (i : Fin 2048) (d : Fin 512) :
    (V m c main_v11 : S4x2048x512.Idx → EReal) (ix3 b i d) = Ideal.div (fOf m c b i d) (Cert.Crf.nrm (fOf m c) b i) := by
  rw [V_v11, hostNormed_apply]
  rfl

/-- The second operand at (b, d, k): the feature (b, k, d) over the norm of row k. -/
theorem V_v12_apply (c : Dev nD) (b : Fin 4) (d : Fin 512) (k : Fin 2048) :
    (V m c main_v12 : S4x512x2048.Idx → EReal) (ix3 b d k) = Ideal.div (fOf m c b k d) (Cert.Crf.nrm (fOf m c) b k) := by
  rw [V_v12, transpose_ix3_021_apply, hostNormed_apply]
  rfl

end Cert.KernelIdeal.KerValue

end
-- ==== Proof.KerBlocks.lean ====
/-
  From the blocks the grid points write back to the whole output array.

  Grid point `t = (b, q)` stages rows `128 q … 128 q + 127` of batch `b` of the normalised features, all of batch `b`'s
  transposed normalised features, the whole symmetrised weight matrix and batch `b`'s unary row, and writes back block
  `(b, q)` of the output: 128 rows by all 2048 columns.  With those blocks, the potential block the body forms is the
  specification's `potNorm` at rows `128 q + r` (`block_eq`), and since a row's update reads no other row, what the
  point writes back is the block of ONE function of the argument arrays, `outRow (potNorm f w) l` (`flushed_eq`).  The 64
  blocks tile the array (`cover`), so the array ends as that function (`final`).
-/
import proofs.«112759_j2671469658740_2_alg».proof.Proof.KerPiece
import proofs.«112759_j2671469658740_2_alg».proof.Proof.KerHost

set_option maxRecDepth 16384

noncomputable section

open Idealize.ShloMosaic Idealize.ShloMosaic.TcCoe Idealize.SL.Sem
open Idealize.ShloMosaic.Pipeline (Dat)

namespace Cert.KernelIdeal.KerValue

open Cert.KernelIdeal Cert.KernelIdeal.Gen Idealize.ShloMosaic.ValueIdx Cert.Crf Cert.RowQuant

variable (m : (ℓ : Loc nD τ sig) → Buf (Elt Ideal) ℓ)

/-- The output array as one function of the argument arrays. -/
def GK (c : Dev nD) : S4x2048x2048.Idx → EReal := fun y =>
  outRow (potNorm (fOf m c) (wOf m c)) (lOf m c) (⟨(y 0).val, (y 0).isLt⟩ : Fin 4) (⟨(y 1).val, (y 1).isLt⟩ : Fin 2048)
    (⟨(y 2).val, (y 2).isLt⟩ : Fin 2048)

theorem GK_apply (c : Dev nD) (b : Fin 4) (i j : Fin 2048) :
    GK m c (ix3 b i j) = outRow (potNorm (fOf m c) (wOf m c)) (lOf m c) b i j := rfl

/-- The update read at indices with equal values. -/
theorem outRow_congr (p : Fin 4 → Fin 2048 → Fin 2048 → EReal) (l : Fin 4 → Fin 2048 → EReal) {b b' : Fin 4} {i i' j j' : Fin 2048}
    (hb : b'.val = b.val) (hi : i'.val = i.val) (hj : j'.val = j.val) : outRow p l b i j = outRow p l b' i' j' := by
  obtain rfl := Fin.ext hb; obtain rfl := Fin.ext hi; obtain rfl := Fin.ext hj; rfl

/-- One grid point, over any blocks that hold what the point stages: the stored block is the block of the whole update. -/
theorem block_eq (f : Fin 4 → Fin 2048 → Fin 512 → EReal) (l : Fin 4 → Fin 2048 → EReal) (w : Fin 2048 → Fin 2048 → EReal)
    (c : Dev nD) (i : grid0.Coords) (arg2 : Memref sig .tc .vmem S1x128x512 .bf16) (harg2 : arg2.IsWhole) (arg3 : Memref sig .tc .vmem S1x512x2048 .bf16) (harg3 : arg3.IsWhole) (arg4 : Memref sig .tc .vmem S2048x2048 .f32) (harg4 : arg4.IsWhole) (arg5 : Memref sig .tc .vmem S1x1x2048 .f32) (harg5 : arg5.IsWhole) (arg6 : Memref sig .tc .vmem S1x128x2048 .f32) (harg6 : arg6.IsWhole)
    (x0 : Vec Ideal S1x128x512 .bf16) (x1 : Vec Ideal S1x512x2048 .bf16) (x2 : Vec Ideal S2048x2048 .f32) (x3 : Vec Ideal S1x1x2048 .f32) (b : Fin 4) (q : Fin 16) (hq : (i 1).val = q.val)
    (row : Fin 128 → Fin 2048) (hrow : ∀ r, (row r).val = 128 * q.val + r.val)
    (h0 : ∀ r d, x0 (ix3 (0 : Fin 1) r d) = Ideal.div (f b (row r) d) (nrm f b (row r)))
    (h1 : ∀ d k, x1 (ix3 (0 : Fin 1) d k) = Ideal.div (f b k d) (nrm f b k))
    (h2 : ∀ i j, x2 (ix2 i j) = wsym w i j)
    (h3 : ∀ k, x3 (ix3 (0 : Fin 1) (0 : Fin 1) k) = l b k)
    (z : Fin 1) (r : Fin 128) (j : Fin 2048) :
    out0_A_4 (F := Ideal) c i arg2 harg2 arg3 harg3 arg4 harg4 arg5 harg5 arg6 harg6 x0 x1 x2 x3 (ix3 z r j) = outRow (potNorm f w) l b (row r) j := by
  rw [out_A_apply]
  have hp : (fun (_ : Unit) (r : Fin 128) (k : Fin 2048) =>
        (∑ d : Fin 512, x0 (ix3 (0 : Fin 1) r d) * x1 (ix3 (0 : Fin 1) d k)) * wRows i x2 (ix2 r k))
      = fun (u : Unit) (r : Fin 128) (k : Fin 2048) => potNorm f w ((fun _ : Unit => b) u) ((fun (_ : Unit) r => row r) u r) k := by
    funext _ r k
    unfold potNorm
    rw [wRows_apply, h2]
    have e : (⟨128 * (i 1).val + r.val, by have := (i 1).isLt; have : (i 1).val < 16 := this; have := r.isLt; omega⟩ : Fin 2048) = row r :=
      Fin.ext (by rw [hrow]; show 128 * (i 1).val + r.val = _; rw [hq])
    rw [e]
    congr 1
    exact Finset.sum_congr rfl fun d _ => by rw [h0, h1]
  have hl : (fun (_ : Unit) (k : Fin 2048) => x3 (ix3 (0 : Fin 1) (0 : Fin 1) k)) = fun (u : Unit) k => l ((fun _ : Unit => b) u) k := by
    funext _ k; exact h3 k
  rw [hp, hl, outRow_rows (potNorm f w) l (fun _ : Unit => b) (fun (_ : Unit) r => row r)]

/-- The printed index maps, decided over the 64 grid points: every window moves with the output's block `(b, q)`. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 3) = win0_4.index t (0 : Fin 3) ∧ win0_3.index t (1 : Fin 3) = 0 ∧ win0_3.index t (2 : Fin 3) = 0
    ∧ win0_4.index t (2 : Fin 3) = 0 ∧ win0_4.index t (0 : Fin 3) ≤ 3 ∧ win0_4.index t (1 : Fin 3) ≤ 15
    ∧ (grid0.coords t 1).val = win0_4.index t (1 : Fin 3) :=
  (by decide +kernel : ∀ t : Fin grid0.N, _)

/-- Every block `(b, q)` of the output is some point's. -/
theorem idx_onto : ∀ (b : Fin 4) (q : Fin 16), ∃ t : Fin cfg0.N, win0_4.index t = ![b.val, q.val, 0] :=
  (by decide +kernel : ∀ (b : Fin 4) (q : Fin 16), ∃ t : Fin grid0.N, win0_4.index t = ![b.val, q.val, 0])

/-- WHAT POINT `t` WRITES BACK is block `t` of `GK`. -/
theorem flushed_eq (c : Dev nD) (t : Fin cfg0.N) :
    (dats m 0 c).flushed 4 t = ((cfg0.win 4).blk t).view.read (Elt Ideal) (GK m c) := by
  show (cfg0.win 4).cut (grid0.coords t) ((dats m 0 c).after 4 t) = _
  rw [after0_4]
  unfold outsAt0
  obtain ⟨e00, e01, e02, e10, e11, e12, e20, e21, e30, e31, e32, e42, b3, q15, eq⟩ := idx_facts t
  funext y
  show out0_A_4 (F := Ideal) c (grid0.coords t) (ms0_0 t) (hs0_0 t) (ms0_1 t) (hs0_1 t) (ms0_2 t) (hs0_2 t) (ms0_3 t) (hs0_3 t)
      (ms0_4 t) (hs0_4 t) (iblk m c 0 t) (iblk m c 1 t) (iblk m c 2 t) (iblk m c 3 t) y = GK m c (((cfg0.win 4).blk t).view.emb y)
  obtain ⟨z, r, j, rfl⟩ : ∃ (z : Fin 1) (r : Fin 128) (j : Fin 2048), y = ix3 z r j := ⟨y 0, y 1, y 2, eq_ix3 y⟩
  have hz0 : z.val = 0 := by have := z.isLt; omega
  have hr : r.val < 128 := r.isLt
  have hj : j.val < 2048 := j.isLt
  rw [block_eq (fOf m c) (lOf m c) (wOf m c) c (grid0.coords t) (ms0_0 t) (hs0_0 t) (ms0_1 t) (hs0_1 t) (ms0_2 t) (hs0_2 t)
    (ms0_3 t) (hs0_3 t) (ms0_4 t) (hs0_4 t) (iblk m c 0 t) (iblk m c 1 t) (iblk m c 2 t) (iblk m c 3 t)
    (⟨win0_4.index t (0 : Fin 3), by omega⟩ : Fin 4) (⟨win0_4.index t (1 : Fin 3), by omega⟩ : Fin 16) eq
    (fun r => (⟨128 * win0_4.index t (1 : Fin 3) + r.val, by have := r.isLt; omega⟩ : Fin 2048)) (fun r => rfl)
    ?h0 ?h1 ?h2 ?h3]
  · -- the written block sits at rows `128 q + r` of batch `b`
    show outRow _ _ _ _ _ = outRow _ _ _ _ _
    have a0 : (((cfg0.win 4).blk t).view.emb (ix3 z r j) (0 : Fin 3)).val = win0_4.index t (0 : Fin 3) := by
      show win0_4.index t (0 : Fin 3) * 1 + 1 * z.val = _; omega
    have a1 : (((cfg0.win 4).blk t).view.emb (ix3 z r j) (1 : Fin 3)).val = 128 * win0_4.index t (1 : Fin 3) + r.val := by
      show win0_4.index t (1 : Fin 3) * 128 + 1 * r.val = _; omega
    have a2 : (((cfg0.win 4).blk t).view.emb (ix3 z r j) (2 : Fin 3)).val = j.val := by
      show win0_4.index t (2 : Fin 3) * 2048 + 1 * j.val = _; omega
    exact outRow_congr _ _ a0 a1 a2
  case h0 =>
    intro r d
    show V m c main_v11 (((cfg0.win 0).blk t).view.emb (ix3 (0 : Fin 1) r d)) = _
    rw [← V_v11_apply]
    refine congrArg (V m c main_v11) (funext fun a => Fin.ext ?_)
    have := r.isLt; have := d.isLt
    match a with
    | ⟨0, _⟩ => show win0_0.index t (0 : Fin 3) * 1 + 1 * 0 = win0_4.index t (0 : Fin 3); omega
    | ⟨1, _⟩ => show win0_0.index t (1 : Fin 3) * 128 + 1 * r.val = 128 * win0_4.index t (1 : Fin 3) + r.val; omega
    | ⟨2, _⟩ => show win0_0.index t (2 : Fin 3) * 512 + 1 * d.val = d.val; omega
  case h1 =>
    intro d k
    show V m c main_v12 (((cfg0.win 1).blk t).view.emb (ix3 (0 : Fin 1) d k)) = _
    rw [← V_v12_apply]
    refine congrArg (V m c main_v12) (funext fun a => Fin.ext ?_)
    have := d.isLt; have := k.isLt
    match a with
    | ⟨0, _⟩ => show win0_1.index t (0 : Fin 3) * 1 + 1 * 0 = win0_4.index t (0 : Fin 3); omega
    | ⟨1, _⟩ => show win0_1.index t (1 : Fin 3) * 512 + 1 * d.val = d.val; omega
    | ⟨2, _⟩ => show win0_1.index t (2 : Fin 3) * 2048 + 1 * k.val = k.val; omega
  case h2 =>
    intro i j
    show V m c main_v4 (((cfg0.win 2).blk t).view.emb (ix2 i j)) = _
    rw [← V_v4_apply]
    refine congrArg (V m c main_v4) (funext fun a => Fin.ext ?_)
    have := i.isLt; have := j.isLt
    match a with
    | ⟨0, _⟩ => show win0_2.index t (0 : Fin 2) * 2048 + 1 * i.val = i.val; omega
    | ⟨1, _⟩ => show win0_2.index t (1 : Fin 2) * 2048 + 1 * j.val = j.val; omega
  case h3 =>
    intro k
    show V m c main_v13 (((cfg0.win 3).blk t).view.emb (ix3 (0 : Fin 1) (0 : Fin 1) k)) = _
    rw [← V_v13_apply m c _ (0 : Fin 1) k]
    refine congrArg (V m c main_v13) (funext fun a => Fin.ext ?_)
    have := k.isLt
    match a with
    | ⟨0, _⟩ => show win0_3.index t (0 : Fin 3) * 1 + 1 * 0 = win0_4.index t (0 : Fin 3); omega
    | ⟨1, _⟩ => show win0_3.index t (1 : Fin 3) * 1 + 1 * 0 = 0; omega
    | ⟨2, _⟩ => show win0_3.index t (2 : Fin 3) * 2048 + 1 * k.val = k.val; omega

/-- An index of the array is in point `t`'s block iff each coordinate is in the block's range on its axis. -/
theorem mem_blk (t : Fin cfg0.N) (i : S4x2048x2048.Idx) :
    i ∈ ((cfg0.win 4).blk t).view.set ↔ ∀ a : Fin 3, win0_4.index t a * S1x128x2048.size a ≤ (i a).val
      ∧ (i a).val < win0_4.index t a * S1x128x2048.size a + S1x128x2048.size a := by
  show i ∈ ((View.whole main_v14).slice (win0_4.rect t)).set ↔ _
  rw [View.set_slice_whole, Rect.mem_set_unit]
  exact Iff.rfl

/-- The 64 blocks tile the array: index `(b, i, j)` is in the block of the point `(b, i / 128)`. -/
theorem cover (i : S4x2048x2048.Idx) : ∃ t : Fin cfg0.N, (cfg0.win 4).flush t = true ∧ i ∈ ((cfg0.win 4).blk t).view.set := by
  have hi0 : (i 0).val < 4 := (i 0).isLt
  have hi1 : (i 1).val < 2048 := (i 1).isLt
  have hi2 : (i 2).val < 2048 := (i 2).isLt
  obtain ⟨t, ht⟩ := idx_onto ⟨(i 0).val, hi0⟩ ⟨(i 1).val / 128, by omega⟩
  have q0 : win0_4.index t (0 : Fin 3) = (i 0).val := congrFun ht 0
  have q1 : win0_4.index t (1 : Fin 3) = (i 1).val / 128 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 128 ≤ (i 1).val ∧ (i 1).val < win0_4.index t (1 : Fin 3) * 128 + 128; omega
  | ⟨2, _⟩ => show win0_4.index t (2 : Fin 3) * 2048 ≤ (i 2).val ∧ (i 2).val < win0_4.index t (2 : Fin 3) * 2048 + 2048; omega

/-- THE ARRAY after the run is `GK`. -/
theorem final (c : Dev nD) : (dats m 0 c).arrAt 4 cfg0.N = GK m c :=
  (dats m 0 c).arrAt_eq_of_cover 4 (GK m c) (fun t _ => flushed_eq m c t) (cover)

end Cert.KernelIdeal.KerValue

end
-- ==== Proof.KerTail.lean ====
/-
  The kernel program's last host line, read at an entry.

  After the pipelined region has written the table `[4, 2048, 2048]`, the program ends with one layout operation: the
  table gets a trailing unit axis (`[4, 2048, 2048, 1]`). Entry `(b, i, j, u)` of the result is entry `(b, i, j)` of the
  table the region leaves.
-/
import proofs.«112759_j2671469658740_2_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.KernelIdeal.KerValue

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The last buffer is the region's output table with a trailing unit axis added. -/
theorem tail_eq (c : Dev nD) :
    Pipeline.afterTail₀ cfgs (dats m) 0 (V0 m) [hostOps1] c main_v15
      = broadcastInDim S4x2048x2048x1 ![0, 1, 2] bcast_S4x2048x2048_S4x2048x2048x1_0_1_2 ((dats m 0 c).arrAt 4 cfg0.N) := by
  unfold Pipeline.afterTail₀
  show StableHlo.after hostOps1 _ (Proc.devRef .tc main_v15) = _
  after_results
  exact congrArg _ (Pipeline.withArrays_arr spec0 launch0.win.arr_inj c _ _ 4)

/-- THE LAST BUFFER READ AT AN ENTRY: the region's output table at the entry's first three coordinates. -/
theorem tail_apply (c : Dev nD) (b : Fin 4) (i j : Fin 2048) (u : Fin 1) :
    (Pipeline.afterTail₀ cfgs (dats m) 0 (V0 m) [hostOps1] c main_v15 : S4x2048x2048x1.Idx → EReal) (ix4 b i j u)
      = ((dats m 0 c).arrAt 4 cfg0.N : S4x2048x2048.Idx → EReal) (ix3 b i j) := by
  rw [tail_eq]
  exact broadcastInDim_apply _ _ _ (ix4 b i j u) (ix3 b i j) fun a =>
    match a with | ⟨0, _⟩ => rfl | ⟨1, _⟩ => rfl | ⟨2, _⟩ => rfl

end Cert.KernelIdeal.KerValue

end
-- ==== Proof.KerRun.lean ====
/-
  The kernel program's run with its result named.

  After the region the program only adds a trailing unit axis to the output array, so its result at `(b, i, j, 0)` is the
  output array at `(b, i, j)`, which the region leaves as `outRow (potNorm f w) l` of the argument arrays (`tail_eq`);
  the generated frame run, read at the result and at the arguments, is then the run to that result (`run_kernel`).
-/
import proofs.«112759_j2671469658740_2_alg».proof.Proof.KerBlocks
import proofs.«112759_j2671469658740_2_alg».proof.Proof.KerTail

set_option maxRecDepth 16384

noncomputable section

open Idealize.ShloMosaic Idealize.ShloMosaic.TcCoe Idealize.SL.Sem
open Idealize.ShloMosaic.Pipeline (Dat)

namespace Cert.KernelIdeal.KerValue

open Cert.KernelIdeal Cert.KernelIdeal.Gen Idealize.ShloMosaic.ValueIdx Cert.Crf

variable (m : (ℓ : Loc nD τ sig) → Buf (Elt Ideal) ℓ) (ρ : Dev nD → PrngReg)

/-- The program's result as one function of the argument arrays. -/
def resK (c : Dev nD) : Buf (Elt Ideal) ((c.tc : Thread nD τ).loc main_v15) := fun (y : S4x2048x2048x1.Idx) =>
  outRow (potNorm (fOf m c) (wOf m c)) (lOf m c) (⟨(y 0).val, (y 0).isLt⟩ : Fin 4) (⟨(y 1).val, (y 1).isLt⟩ : Fin 2048)
    (⟨(y 2).val, (y 2).isLt⟩ : Fin 2048)

/-- The line after the region leaves the result at `resK`. -/
theorem result_eq (c : Dev nD) : Pipeline.afterTail₀ cfgs (dats m) 0 (V0 m) [hostOps1] c main_v15 = resK m c := by
  funext y
  obtain ⟨b, i, j, u, rfl⟩ : ∃ (b : Fin 4) (i j : Fin 2048) (u : Fin 1), y = ix4 b i j u := ⟨y 0, y 1, y 2, y 3, eq_ix4 y⟩
  show (Pipeline.afterTail₀ cfgs (dats m) 0 (V0 m) [hostOps1] c main_v15 : S4x2048x2048x1.Idx → EReal) (ix4 b i j u)
    = resK m c (ix4 b i j u)
  rw [tail_apply, final, GK_apply]
  rfl

/-- Every weakly fair execution of the kernel program terminates with its result at `resK` and its arguments unchanged. -/
theorem run_kernel : θ_run defs (onTc (τ := τ) (main (F := Ideal))) ⟨m, fun _ => 0, ρ⟩ (fun r => ∀ c : Dev nD,
      r.2.mem ((c.tc : Thread nD τ).loc main_v15) = resK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v15 (Pipeline.mem_restRefs_of main_v15 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KerValue

end
-- ==== Proof.lean ====
/-
  A conditional-random-field mean-field update, as a kernel and as its jnp reference: equal results on the extended reals.

  Both programs form, per batch, a pairwise potential `p i j` — the cosine of feature rows `i` and `j` times the symmetrised
  weight — and a unary term `l j`, and iterate ten times: the reference keeps the whole table `q i j = σ (l j + ∑ k, p i k · q i k)`
  started at one half, the kernel keeps per row the one number `s i = ∑ k, p i k · σ (l k + s i)` that the table depends on,
  started at half the row sum of `p`, and writes `σ (l j + s i)` at the end.  They differ in three spellings, each an
  identity of real numbers: the cosine as the rows' dot product over the product of their norms or as the dot product of the
  rows each divided by its norm; the logistic `σ` through the exponential or through the hyperbolic tangent; half a sum or
  the sum of halves.  All three hold where every input is a finite number and every feature row has a positive squared
  norm — the precondition: a row of zeros makes the reference's quotient `0 / 0`.

  The kernel's side reads its generated frame run (the block each grid point writes back is a block of one function of the
  argument arrays, and the 64 blocks tile the output), the reference's side reads its generated run term at an index, and the
  real-number identities join the two.
-/
import proofs.«112759_j2671469658740_2_alg».proof.Defs
import proofs.«112759_j2671469658740_2_alg».proof.Proof.Gen.Kernel
import proofs.«112759_j2671469658740_2_alg».proof.Proof.Gen.Kernel.Skeleton
import proofs.«112759_j2671469658740_2_alg».proof.Proof.Gen.Kernel.Launch
import proofs.«112759_j2671469658740_2_alg».proof.Proof.Gen.Kernel.Points
import proofs.«112759_j2671469658740_2_alg».proof.Proof.Gen.Kernel.Frame
import proofs.«112759_j2671469658740_2_alg».proof.Proof.Gen.KernelIdeal
import proofs.«112759_j2671469658740_2_alg».proof.Proof.Gen.KernelIdeal.Skeleton
import proofs.«112759_j2671469658740_2_alg».proof.Proof.Gen.KernelIdeal.Launch
import proofs.«112759_j2671469658740_2_alg».proof.Proof.Gen.KernelIdeal.Points
import proofs.«112759_j2671469658740_2_alg».proof.Proof.Gen.KernelIdeal.Frame
import proofs.«112759_j2671469658740_2_alg».proof.Proof.Gen.ReferenceIdeal
import proofs.«112759_j2671469658740_2_alg».proof.Proof.Gen.ReferenceIdeal.Run
import proofs.«112759_j2671469658740_2_alg».proof.Proof.Gen.Pre_finite_inputs
import proofs.«112759_j2671469658740_2_alg».proof.Proof.CrfAlgebra
import proofs.«112759_j2671469658740_2_alg».proof.Proof.PreDecode
import proofs.«112759_j2671469658740_2_alg».proof.Proof.RefRead
import proofs.«112759_j2671469658740_2_alg».proof.Proof.KerRun
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- No operation of the kernel is rewritten for the exact reading: the idealized kernel is the kernel's own text read on
    the extended reals. -/
theorem preserves : Cert.preserves_Kernel_KernelIdeal := trivial

/-- The reference's result, from arguments that agree with the kernel's and satisfy the precondition, is the kernel's:
    at every entry the ten table updates over the quotient form of the potential are the nine row-sum updates over the
    normalised form. -/
theorem ref_eq_ker (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) = fun _ => 1#1)
    (h0 : m' ((c.tc : Thread Cert.ReferenceIdeal.nD Cert.ReferenceIdeal.τ).loc Cert.ReferenceIdeal.main_arg0)
        = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
        = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
        = m ((c.tc : Thread Cert.KernelIdeal.nD Cert.KernelIdeal.τ).loc Cert.KernelIdeal.main_arg2)) :
    Cert.ReferenceIdeal.Value.val4 (F := Ideal) (StableHlo.launchContents m' c) (Proc.devRef .tc Cert.ReferenceIdeal.main_v153)
      = Cert.KernelIdeal.KerValue.resK m c := by
  obtain ⟨hf, hl, hw, hpos⟩ := Cert.PreDecode.finite_and_pos _ _ _ hpre
  funext y
  obtain ⟨b, i, j, u, rfl⟩ : ∃ (b : Fin 4) (i j : Fin 2048) (u : Fin 1), y = ix4 b i j u := ⟨y 0, y 1, y 2, y 3, eq_ix4 y⟩
  show (Cert.ReferenceIdeal.Value.val4 (F := Ideal) (StableHlo.launchContents m' c) (Proc.devRef .tc Cert.ReferenceIdeal.main_v153)
      : Cert.ReferenceIdeal.S4x2048x2048x1.Idx → EReal) (ix4 b i j u) = Cert.KernelIdeal.KerValue.resK m c (ix4 b i j u)
  rw [Cert.ReferenceIdeal.RefValue.result_apply]
  show Cert.Crf.outTable (Cert.Crf.potQuot
        (fun b i d => (m' ((c.tc : Thread Cert.ReferenceIdeal.nD Cert.ReferenceIdeal.τ).loc Cert.ReferenceIdeal.main_arg0)
          : Cert.ReferenceIdeal.S4x2048x512.Idx → EReal) (ix3 b i d))
        (fun i j => (m' ((c.tc : Thread Cert.ReferenceIdeal.nD Cert.ReferenceIdeal.τ).loc Cert.ReferenceIdeal.main_arg2)
          : Cert.ReferenceIdeal.S1x2048x2048.Idx → EReal) (ix3 (0 : Fin 1) i j)))
      (fun b j => (m' ((c.tc : Thread Cert.ReferenceIdeal.nD Cert.ReferenceIdeal.τ).loc Cert.ReferenceIdeal.main_arg1)
          : Cert.ReferenceIdeal.S4x2048x1.Idx → EReal) (ix3 b j (0 : Fin 1))) _ _ _
    = Cert.Crf.outRow (Cert.Crf.potNorm (Cert.KernelIdeal.KerValue.fOf m c) (Cert.KernelIdeal.KerValue.wOf m c))
        (Cert.KernelIdeal.KerValue.lOf m c) _ _ _
  rw [h0, h1, h2]
  exact (congrFun (congrFun (congrFun (Cert.Crf.outRow_potNorm_eq_outTable_potQuot
    (Cert.KernelIdeal.KerValue.fOf m c) (Cert.KernelIdeal.KerValue.lOf m c) (Cert.KernelIdeal.KerValue.wOf m c)
    (fun b i d => hf (ix3 b i d)) (fun b j => hl (ix3 b j (0 : Fin 1))) (fun i j => hw (ix3 (0 : Fin 1) i j)) hpos) _) _) _).symm

theorem algebraic : Cert.algebraic_KernelIdeal_ReferenceIdeal := by
  intro m ρ m' ρ' hpre hagree
  refine ⟨fun c => Cert.KernelIdeal.KerValue.resK m c, Cert.KernelIdeal.KerValue.run_kernel m ρ, ?_⟩
  refine (θ_run Cert.ReferenceIdeal.defs _ _).mono (fun _ h c => ⟨(h c).1.trans ?_, (h c).2⟩)
    (Cert.ReferenceIdeal.Value.run (F := Ideal) m' ρ')
  exact (Cert.ReferenceIdeal.Value.val4_main_v153 (F := Ideal) (StableHlo.launchContents m' c)).symm.trans
    (ref_eq_ker m m' c (hpre c) (hagree c).1 (hagree c).2.1 (hagree c).2.2)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
